-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S800000 : Shape := ⟨1, ![800000]⟩
abbrev S512x96 : Shape := ⟨2, ![512, 96]⟩
abbrev S96 : Shape := ⟨1, ![96]⟩
abbrev S96x40 : Shape := ⟨2, ![96, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S96x40 .f32) (main_arg6 : FVec F S40 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x40 .f32 := Host.absf main_arg5
  let main_cst_6 : FVec F S_ .f32 := constant S_ .f32 0x7F800000#32
  let main_v20 : FVec F S96x40 .f32 := broadcastInDim S96x40 ![] bcast_S_S96x40 main_cst_6
  let main_v21 : IVec S96x40 1 := cmpf .olt main_v19 main_v20
  let main_c_7 : IVec S_ 1 := constantI S_ 1 1#1
  let main_v22 : IVec S_ 1 := (fun x v => Host.reduce IntOp.andi x v reducesTo_S96x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S2x800000 32) (main_arg2 : FVec F S800000 .f32) (main_arg3 : FVec F S512x96 .f32) (main_arg4 : FVec F S96 .f32) (main_arg5 : FVec F S96x40 .f32) (main_arg6 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x96 .f32 := Host.absf main_arg3
  let main_cst_2 : FVec F S_ .f32 := constant S_ .f32 0x7F800000#32
  let main_v10 : FVec F S512x96 .f32 := broadcastInDim S512x96 ![] bcast_S_S512x96 main_cst_2
  let main_v11 : IVec S512x96 1 := cmpf .olt main_v9 main_v10
  let main_c_3 : IVec S_ 1 := constantI S_ 1 1#1
  let main_v12 : IVec S_ 1 := (fun x v => Host.reduce IntOp.andi x v reducesTo_S512x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_v13 main_v16
-- ==== Kernel.lean ====
abbrev S50000x512 : Shape := ⟨2, ![50000, 512]⟩
abbrev S2x800000 : Shape := ⟨2, ![2, 800000]⟩
abbrev S800000 : Shape := ⟨1, ![800000]⟩
abbrev S512x96 : Shape := ⟨2, ![512, 96]⟩
abbrev S96 : Shape := ⟨1, ![96]⟩
abbrev S96x40 : Shape := ⟨2, ![96, 40]⟩
abbrev S40 : Shape := ⟨1, ![40]⟩
abbrev S1x96 : Shape := ⟨2, ![1, 96]⟩
abbrev S1x40 : Shape := ⟨2, ![1, 40]⟩
abbrev S50000x96 : Shape := ⟨2, ![50000, 96]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S50000x40 : Shape := ⟨2, ![50000, 40]⟩
abbrev S5000x512 : Shape := ⟨2, ![5000, 512]⟩
abbrev S5000x96 : Shape := ⟨2, ![5000, 96]⟩
abbrev S5000x40 : Shape := ⟨2, ![5000, 40]⟩
abbrev S5000 : Shape := ⟨1, ![5000]⟩
abbrev S5000x1 : Shape := ⟨2, ![5000, 1]⟩

abbrev nBuf : Space → Nat
  | .hbm => 32
  | .vmem => 12
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x96, .f32⟩
  | .hbm, ⟨4, _⟩ => ⟨S96, .f32⟩
  | .hbm, ⟨5, _⟩ => ⟨S96x40, .f32⟩
  | .hbm, ⟨6, _⟩ => ⟨S40, .f32⟩
  | .hbm, ⟨7, _⟩ => ⟨S1x96, .f32⟩
  | .hbm, ⟨8, _⟩ => ⟨S1x40, .f32⟩
  | .hbm, ⟨9, _⟩ => ⟨S50000x96, .bf16⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x96, .bf16⟩
  | .hbm, ⟨23, _⟩ => ⟨S800000x96, .f32⟩
  | .hbm, ⟨24, _⟩ => ⟨S800000x1, .f32⟩
  | .hbm, ⟨25, _⟩ => ⟨S800000x96, .f32⟩
  | .hbm, ⟨26, _⟩ => ⟨S800000x96, .f32⟩
  | .hbm, ⟨27, _⟩ => ⟨S_, .f32⟩
  | .hbm, ⟨28, _⟩ => ⟨S50000x96, .f32⟩
  | .hbm, ⟨29, _⟩ => ⟨S800000x1, .i32⟩
  | .hbm, ⟨30, _⟩ => ⟨S50000x96, .f32⟩
  | .hbm, ⟨31, _⟩ => ⟨S50000x40, .f32⟩
  | .local _ .vmem, ⟨0, _⟩ => ⟨S5000x512, .f32⟩
  | .local _ .vmem, ⟨1, _⟩ => ⟨S5000x512, .f32⟩
  | .local _ .vmem, ⟨2, _⟩ => ⟨S512x96, .f32⟩
  | .local _ .vmem, ⟨3, _⟩ => ⟨S1x96, .f32⟩
  | .local _ .vmem, ⟨4, _⟩ => ⟨S5000x96, .bf16⟩
  | .local _ .vmem, ⟨5, _⟩ => ⟨S5000x96, .bf16⟩
  | .local _ .vmem, ⟨6, _⟩ => ⟨S5000x96, .f32⟩
  | .local _ .vmem, ⟨7, _⟩ => ⟨S5000x96, .f32⟩
  | .local _ .vmem, ⟨8, _⟩ => ⟨S96x40, .f32⟩
  | .local _ .vmem, ⟨9, _⟩ => ⟨S1x40, .f32⟩
  | .local _ .vmem, ⟨10, _⟩ => ⟨S5000x40, .f32⟩
  | .local _ .vmem, ⟨11, _⟩ => ⟨S5000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c : Ref sig .tc := ⟨.hbm, 14, rfl⟩
abbrev main_call0_v7 : Ref sig .tc := ⟨.hbm, 15, rfl⟩
abbrev main_call0_v8 : Ref sig .tc := ⟨.hbm, 16, rfl⟩
abbrev main_call0_c_0 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_cst : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S96_S1x96 : S96.ShapeCasts S1x96
  shapeCasts_S40_S1x40 : S40.ShapeCasts S1x40
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  inb_S5000x512_S5000x512_0_0 : ∀ a, (![0, 0] : Fin 2 → Nat) a + S5000x512.size a ≤ S5000x512.size a
  h_S5000x512 : 0 < S5000x512.numel
  inb_S512x96_S512x96_0_0 : ∀ a, (![0, 0] : Fin 2 → Nat) a + S512x96.size a ≤ S512x96.size a
  h_S512x96 : 0 < S512x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  packedbf16_S5000x96_S5000x96_0_0 : (Rect.unit (s := S5000x96) ![0, 0] S5000x96.size inb_S5000x96_S5000x96_0_0).PackedRows (EltTy.packing .bf16)
  shapeCasts_S5000x96_S5000x96 : S5000x96.ShapeCasts S5000x96
  inb_S96x40_S96x40_0_0 : ∀ a, (![0, 0] : Fin 2 → Nat) a + S96x40.size a ≤ S96x40.size a
  h_S96x40 : 0 < S96x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x512_S512x96_S5000x96_1_0_0_1_n_n_wf : DotDims.WF S5000x512 S512x96 S5000x96 [1] [0] [0] [1] [] []
  dot_S5000x96_S96x40_S5000x40_1_0_0_1_n_n_wf : DotDims.WF S5000x96 S96x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .bf16 = 32 ∨ (Rect.block (s := S50000x96) S5000x96.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x40.size a ≤ S96x40.size a
  hwx1_1 : ∀ i : grid1.Coords, EltTy.bits .f32 = 32 ∨ (Rect.block (s := S96x40) S96x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S50000x40.size a
  hwx1_3 : ∀ i : grid1.Coords, EltTy.bits .f32 = 32 ∨ (Rect.block (s := S50000x40) S5000x40.size (cc1_transform_3 i) (hinb1_3 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x512_S512x96_S5000x96_1_0_0_1_n_n : DotDims S5000x512 S512x96 S5000x96 where
  lhsContracting := [1]
  rhsContracting := [0]
  lhsNonContracting := [0]
  rhsNonContracting := [1]
  lhsBatch := []
  rhsBatch := []
  wf := dot_S5000x512_S512x96_S5000x96_1_0_0_1_n_n_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v20) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S96x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S800000 : Shape := ⟨1, ![800000]⟩
abbrev S512x96 : Shape := ⟨2, ![512, 96]⟩
abbrev S96 : Shape := ⟨1, ![96]⟩
abbrev S96x40 : Shape := ⟨2, ![96, 40]⟩
abbrev S40 : Shape := ⟨1, ![40]⟩
abbrev S50000x96 : Shape := ⟨2, ![50000, 96]⟩
abbrev S1x96 : Shape := ⟨2, ![1, 96]⟩
abbrev S1x800000 : Shape := ⟨2, ![1, 800000]⟩
abbrev S_ : Shape := ⟨0, ![]⟩
abbrev S800000x1 : Shape := ⟨2, ![800000, 1]⟩
abbrev S800000x96 : Shape := ⟨2, ![800000, 96]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 53
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S800000, .f32⟩
  | .hbm, ⟨3, _⟩ => ⟨S512x96, .f32⟩
  | .hbm, ⟨4, _⟩ => ⟨S96, .f32⟩
  | .hbm, ⟨5, _⟩ => ⟨S96x40, .f32⟩
  | .hbm, ⟨6, _⟩ => ⟨S40, .f32⟩
  | .hbm, ⟨7, _⟩ => ⟨S50000x96, .f32⟩
  | .hbm, ⟨8, _⟩ => ⟨S1x96, .f32⟩
  | .hbm, ⟨9, _⟩ => ⟨S50000x96, .f32⟩
  | .hbm, ⟨10, _⟩ => ⟨S50000x96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x1, .f32⟩
  | .hbm, ⟨25, _⟩ => ⟨S800000x96, .f32⟩
  | .hbm, ⟨26, _⟩ => ⟨S800000x96, .f32⟩
  | .hbm, ⟨27, _⟩ => ⟨S_, .f32⟩
  | .hbm, ⟨28, _⟩ => ⟨S50000x96, .f32⟩
  | .hbm, ⟨29, _⟩ => ⟨S800000x1, .i32⟩
  | .hbm, ⟨30, _⟩ => ⟨S50000x96, .f32⟩
  | .hbm, ⟨31, _⟩ => ⟨S_, .f32⟩
  | .hbm, ⟨32, _⟩ => ⟨S50000x96, .f32⟩
  | .hbm, ⟨33, _⟩ => ⟨S50000x96, .f32⟩
  | .hbm, ⟨34, _⟩ => ⟨S50000x40, .f32⟩
  | .hbm, ⟨35, _⟩ => ⟨S1x40, .f32⟩
  | .hbm, ⟨36, _⟩ => ⟨S50000x40, .f32⟩
  | .hbm, ⟨37, _⟩ => ⟨S50000x40, .f32⟩
  | .hbm, ⟨38, _⟩ => ⟨S_, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x40, .f32⟩
  | .hbm, ⟨45, _⟩ => ⟨S50000x40, .f32⟩
  | .hbm, ⟨46, _⟩ => ⟨S50000x40, .f32⟩
  | .hbm, ⟨47, _⟩ => ⟨S_, .f32⟩
  | .hbm, ⟨48, _⟩ => ⟨S50000, .f32⟩
  | .hbm, ⟨49, _⟩ => ⟨S50000x1, .f32⟩
  | .hbm, ⟨50, _⟩ => ⟨S50000x1, .f32⟩
  | .hbm, ⟨51, _⟩ => ⟨S50000x40, .f32⟩
  | .hbm, ⟨52, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_cst : Ref sig .tc := ⟨.hbm, 38, rfl⟩
abbrev main_call1_v0 : Ref sig .tc := ⟨.hbm, 39, rfl⟩
abbrev main_call1_cst_0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_cst_1 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_v26 : Ref sig .tc := ⟨.hbm, 52, rfl⟩

abbrev nD : Nat := 1
abbrev τ : Topo := Topo.v7x

variable {F : FTy → Type} [FloatOps F]

class Facts₀ : Prop where
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x512_S512x96_S50000x96_1_0_0_1_n_n_wf : DotDims.WF S50000x512 S512x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x40_S50000x40_1_0_0_1_n_n_wf : DotDims.WF S50000x96 S96x40 S50000x40 [1] [0] [0] [1] [] []

variable [Facts₀]

def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.KRun.lean ====
/-
  The idealized kernel's run with its result array named.

  The program is two kernel regions with host operations before each. Its frame run carries, at the end, every
  unscoped buffer at the contents the last boundary's fold gives it (the launch memory pushed through the first
  host stretch, the first region's write-backs, the second host stretch and the second region's write-backs).
  Reading that last thread state at the result buffer, beside the argument buffers, gives the run whose post names
  the result: it is what the second region's write-backs leave in its output array.
-/
import proofs.«175969_j3607772529222_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the seven argument arrays end as launched. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Named

end
-- ==== Proof.KHost.lean ====
/-
  The idealized kernel's two host stretches, read back.

  Before the first region the host reshapes the two bias vectors into one-row matrices; between the regions it runs the
  edge stage (slices of the edge list, the index wrap, the gather of the first region's rows with its widening to f32,
  the scaling by the edge weights, the scatter-add into zeros). Each stretch is read over an ARBITRARY valuation of the
  buffers, so that every operand is an atom; the run's boundary contents are then read through the stretches to the
  launch memory and to what the first region's write-backs leave.
-/
import proofs.«175969_j3607772529222_2_alg».proof.Proof.Gen.KernelIdeal.Frame
import Idealize.ShloMosaic.Lib.StableHlo.Run

noncomputable section

namespace Cert.KernelIdeal.Stretch

open Idealize.ShloMosaic Idealize.ShloMosaic.TcCoe Idealize.SL.Sem Idealize.ShloMosaic.StableHlo
open Idealize.ShloMosaic.Pipeline (Dat)
open Cert.KernelIdeal Cert.KernelIdeal.Facts₀

variable {F : FTy → Type} [FloatOps F]

/-- The edge stage over the kernel's own dimension records: as the reference's, with the gathered rows widened from
    bf16 to f32 before the scaling. -/
def edgeStageK (sup : (⟨S50000x96, .bf16⟩ : BufTy).Contents (Elt F)) (ei : (⟨S2x800000, .i32⟩ : BufTy).Contents (Elt F))
    (ew : (⟨S800000, .f32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0
      (shapeCast S800000 (extractStridedSlice S1x800000 ![1, 0] ei slices_S2x800000_S1x800000_1_0) shapeCasts_S1x800000_S800000))
    (mulf
      (extf .f32 (Host.gather gather_S50000x96_S800000x1_S800000x96_1_0_n_n_0_1_196 sup
        (broadcastInDim S800000x1 ![0] bcast_S800000_S800000x1_0
          (select
            (cmpi .slt (shapeCast S800000 (extractStridedSlice S1x800000 ![0, 0] ei slices_S2x800000_S1x800000_0_0) shapeCasts_S1x800000_S800000)
              (broadcastInDim S800000 ![] bcast_S_S800000 (constantI S_ 32 0#32)))
            (addi (shapeCast S800000 (extractStridedSlice S1x800000 ![0, 0] ei slices_S2x800000_S1x800000_0_0) shapeCasts_S1x800000_S800000)
              (broadcastInDim S800000 ![] bcast_S_S800000 (constantI S_ 32 50000#32)))
            (shapeCast S800000 (extractStridedSlice S1x800000 ![0, 0] ei slices_S2x800000_S1x800000_0_0) shapeCasts_S1x800000_S800000)))) bitsLt_bf16_f32)
      (broadcastInDim S800000x96 ![0, 1] bcast_S800000x1_S800000x96_0_1
        (broadcastInDim S800000x1 ![0] bcast_S800000_S800000x1_0 ew)))

variable (W : Valuation τ sig (Elt F))

/-! ## The first stretch: the two bias rows -/

theorem ops0_v0 : after (Gen.hostOps0 (F := F)) W (Proc.devRef .tc main_call0_v0)
    = (shapeCast S1x96 (W (Proc.devRef .tc main_arg4)) shapeCasts_S96_S1x96 : (⟨S1x96, .f32⟩ : BufTy).Contents (Elt F)) := by
  dsimp only [Gen.hostOps0]; after_results; rfl

theorem ops0_v1 : after (Gen.hostOps0 (F := F)) W (Proc.devRef .tc main_call0_v1)
    = (shapeCast S1x40 (W (Proc.devRef .tc main_arg6)) shapeCasts_S40_S1x40 : (⟨S1x40, .f32⟩ : BufTy).Contents (Elt F)) := by
  dsimp only [Gen.hostOps0]; after_results; rfl

theorem ops0_arg0 : after (Gen.hostOps0 (F := F)) W (Proc.devRef .tc main_arg0) = W (Proc.devRef .tc main_arg0) := by
  dsimp only [Gen.hostOps0]; after_results
theorem ops0_arg1 : after (Gen.hostOps0 (F := F)) W (Proc.devRef .tc main_arg1) = W (Proc.devRef .tc main_arg1) := by
  dsimp only [Gen.hostOps0]; after_results
theorem ops0_arg2 : after (Gen.hostOps0 (F := F)) W (Proc.devRef .tc main_arg2) = W (Proc.devRef .tc main_arg2) := by
  dsimp only [Gen.hostOps0]; after_results
theorem ops0_arg3 : after (Gen.hostOps0 (F := F)) W (Proc.devRef .tc main_arg3) = W (Proc.devRef .tc main_arg3) := by
  dsimp only [Gen.hostOps0]; after_results
theorem ops0_arg5 : after (Gen.hostOps0 (F := F)) W (Proc.devRef .tc main_arg5) = W (Proc.devRef .tc main_arg5) := by
  dsimp only [Gen.hostOps0]; after_results

/-! ## The second stretch: the edge stage -/

theorem ops1_v20 : after (Gen.hostOps1 (F := F)) W (Proc.devRef .tc main_call0_v20)
    = edgeStageK (W (Proc.devRef .tc main_call0_v2)) (W (Proc.devRef .tc main_arg1)) (W (Proc.devRef .tc main_arg2)) := by
  dsimp only [Gen.hostOps1]; after_results; rfl

theorem ops1_arg5 : after (Gen.hostOps1 (F := F)) W (Proc.devRef .tc main_arg5) = W (Proc.devRef .tc main_arg5) := by
  dsimp only [Gen.hostOps1]; after_results
theorem ops1_v1 : after (Gen.hostOps1 (F := F)) W (Proc.devRef .tc main_call0_v1) = W (Proc.devRef .tc main_call0_v1) := by
  dsimp only [Gen.hostOps1]; after_results

end Cert.KernelIdeal.Stretch

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«175969_j3607772529222_2_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.KPay0.lean ====
/-
  The first kernel body's stored value, read at an entry over the extended reals.

  The body loads a [5000, 512] block of features, the whole [512, 96] weight and the [1, 96] bias row, rounds the two
  matrix operands to bf16 (the identity over the extended reals), multiplies them into a zero accumulator, adds the
  bias row broadcast down the rows, and rounds the sum to bf16 (the identity again). Entry (p, h) of what it stores is
  the sum over k of block (p, k) times weight (k, h), plus the bias at h.
-/
import proofs.«175969_j3607772529222_2_alg».proof.Proof.Gen.KernelIdeal.Skeleton
import proofs.«175969_j3607772529222_2_alg».proof.Proof.LibDotApply
import Idealize.ShloMosaic.Lib.ValueLayout

noncomputable section

namespace Cert.KernelIdeal.Pay0

open Idealize.ShloMosaic Idealize.ShloMosaic.ValueIdx
open Cert.KernelIdeal Cert.KernelIdeal.Gen

variable [Cert.KernelIdeal.Facts]

/-- The first matrix product's dimension numbers are the plain ones. -/
theorem plain0 : Cert.LibPlainDot.IsPlain (n := 5000) (K := 512) (M := 96) dot_S5000x512_S512x96_S5000x96_1_0_0_1_n_n :=
  ⟨rfl, rfl, rfl, rfl, rfl, rfl⟩

/-- Entry (p, h) of the first body's stored block. -/
theorem pay0_apply (x0 : Vec Ideal S5000x512 .f32) (x1 : Vec Ideal S512x96 .f32) (x2 : Vec Ideal S1x96 .f32)
    (p : Fin 5000) (h : Fin 96) :
    k0_pay1 (F := Ideal) x0 x1 x2 (ix2 p h) = (∑ k : Fin 512, x0 (ix2 p k) * x1 (ix2 k h)) + x2 (ix2 (0 : Fin 1) h) := by
  unfold k0_pay1
  show FloatOps.matmul (F := Ideal) dot_S5000x512_S512x96_S5000x96_1_0_0_1_n_n none _ _ _ (ix2 p h)
      + broadcastTo S5000x96 (shapeCast S1x96 x2 _) _ (ix2 p h) = _
  refine congrArg₂ (· + ·) ?_ ?_
  · exact Cert.LibDotApply.matmul_zero_apply dot_S5000x512_S512x96_S5000x96_1_0_0_1_n_n plain0 none _ _ p h
  · refine (broadcastTo_1b_ab_apply _ _ p h).trans ?_
    rw [shapeCast_self]

end Cert.KernelIdeal.Pay0

end
-- ==== Proof.KReg0.lean ====
/-
  The first region's output array, as one function of the arrays the region finds.

  The grid has ten points; point t reads rows 5000 t … 5000 t + 4999 of the features, the whole weight matrix and the
  whole bias row, and writes rows 5000 t … 5000 t + 4999 of the output. Every entry of the block point t writes back is
  the dense transform's entry at the corresponding row of the whole array, so each write-back is a block of one
  whole-array function, and the ten blocks cover the array: after the region the output array IS that function.
-/
import proofs.«175969_j3607772529222_2_alg».proof.Proof.Gen.KernelIdeal.Frame
import proofs.«175969_j3607772529222_2_alg».proof.Proof.KPay0
import Idealize.ShloMosaic.Lib.Pipeline.Value

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Entry i of the dense transform of a feature array, a weight array and a one-row bias array. -/
def G0 (x : S50000x512.Idx → EReal) (w : S512x96.Idx → EReal) (brow : S1x96.Idx → EReal) : S50000x96.Idx → EReal :=
  fun i => (∑ k : Fin 512, x (ix2 (⟨(i 0).val, (i 0).isLt⟩ : Fin 50000) k) * w (ix2 k (⟨(i 1).val, (i 1).isLt⟩ : Fin 96)))
    + brow (ix2 (0 : Fin 1) (⟨(i 1).val, (i 1).isLt⟩ : Fin 96))

theorem hz : (![0, 0] : Fin 2 → Nat) = fun _ => 0 := funext fun a => by fin_cases a <;> rfl

/-- The windows' block indices over the grid: the feature and output windows move down the rows with the point, the
    weight and bias windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored block at an entry, with the entry's coordinates read off the index. -/
theorem pay0_at (x0 : Vec Ideal S5000x512 .f32) (x1 : Vec Ideal S512x96 .f32) (x2 : Vec Ideal S1x96 .f32) (y : S5000x96.Idx) :
    k0_pay1 (F := Ideal) x0 x1 x2 y
      = (∑ k : Fin 512, x0 (ix2 (⟨(y 0).val, (y 0).isLt⟩ : Fin 5000) k) * x1 (ix2 k (⟨(y 1).val, (y 1).isLt⟩ : Fin 96)))
        + x2 (ix2 (0 : Fin 1) (⟨(y 1).val, (y 1).isLt⟩ : Fin 96)) := by
  have e : y = ix2 (⟨(y 0).val, (y 0).isLt⟩ : Fin 5000) (⟨(y 1).val, (y 1).isLt⟩ : Fin 96) := eq_ix2 y
  rw [e]
  exact Pay0.pay0_apply x0 x1 x2 _ _

/-- The feature window's block at point t is rows 5000 t … of the feature array. -/
theorem iblk_x (c : Dev nD) (t : Fin cfg0.N) (y : S5000x512.Idx) (k : S50000x512.Idx)
    (hk0 : (k 0).val = 5000 * t.val + (y 0).val) (hk1 : (k 1).val = (y 1).val) :
    (iblk0 V c 0 t : Vec Ideal S5000x512 .f32) y = (V c main_arg0 : S50000x512.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e0, hk0]; omega
  | ⟨1, _⟩ => show win0_0.index t 1 * 512 + 1 * (y 1).val = (k 1).val; rw [e1, hk1]; omega

/-- The weight window's block at every point is the whole weight array. -/
theorem iblk_w (c : Dev nD) (t : Fin cfg0.N) (y : S512x96.Idx) :
    (iblk0 V c 1 t : Vec Ideal S512x96 .f32) y = (V c main_arg3 : S512x96.Idx → EReal) y := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 512 + 1 * (y 0).val = (y 0).val; rw [e0]; omega
  | ⟨1, _⟩ => show win0_1.index t 1 * 96 + 1 * (y 1).val = (y 1).val; rw [e1]; omega

/-- The bias window's block at every point is the whole bias row. -/
theorem iblk_b (c : Dev nD) (t : Fin cfg0.N) (y : S1x96.Idx) :
    (iblk0 V c 2 t : Vec Ideal S1x96 .f32) y = (V c main_call0_v0 : S1x96.Idx → EReal) y := by
  obtain ⟨-, -, -, -, e0, e1, -⟩ := idx_facts t
  unfold iblk0
  rw [View.read_apply]
  show V c main_call0_v0 _ = V c main_call0_v0 _
  congr 1
  funext a
  apply Fin.ext
  match a with
  | ⟨0, _⟩ => show win0_2.index t 0 * 1 + 1 * (y 0).val = (y 0).val; rw [e0]; omega
  | ⟨1, _⟩ => show win0_2.index t 1 * 96 + 1 * (y 1).val = (y 1).val; rw [e1]; omega

/-- What point t writes back is block t of the dense transform of the arrays the region finds. -/
theorem flushed_eq (c : Dev nD) (t : Fin cfg0.N) :
    (dat0 V c).flushed 3 t = ((cfg0.win 3).blk t).view.read (Elt Ideal)
      (G0 (V c main_arg0) (V c main_arg3) (V c main_call0_v0)) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x96) hz, View.ld_unit_zero (S := S1x96) hz]
  obtain ⟨-, -, -, -, -, -, e0, e1⟩ := idx_facts t
  funext j
  have hj0 : (j 0).val < 5000 := (j 0).isLt
  have hj1 : (j 1).val < 96 := (j 1).isLt
  have ht : t.val < 10 := by have h := t.isLt; have hN : cfg0.N = 10 := N_0; omega
  refine (pay0_at _ _ _ j).trans ?_
  show _ = G0 (V c main_arg0) (V c main_arg3) (V c main_call0_v0) (((cfg0.win 3).blk t).view.emb j)
  have h0 : ((((cfg0.win 3).blk t).view.emb j) 0).val = 5000 * t.val + (j 0).val := by
    show win0_3.index t 0 * 5000 + 1 * (j 0).val = _; rw [e0]; omega
  have h1 : ((((cfg0.win 3).blk t).view.emb j) 1).val = (j 1).val := by
    show win0_3.index t 1 * 96 + 1 * (j 1).val = _; rw [e1]; omega
  unfold G0
  refine congrArg₂ (· + ·) (Finset.sum_congr rfl fun k _ => congrArg₂ (· * ·) ?_ ?_) ?_
  · exact iblk_x V c t _ _ (by show _ = 5000 * t.val + (j 0).val; exact h0) rfl
  · refine (iblk_w V c t _).trans (congrArg _ (funext fun a => Fin.ext ?_))
    match a with
    | ⟨0, _⟩ => rfl
    | ⟨1, _⟩ => exact h1.symm
  · refine (iblk_b V c t _).trans (congrArg _ (funext fun a => Fin.ext ?_))
    match a with
    | ⟨0, _⟩ => rfl
    | ⟨1, _⟩ => exact h1.symm

/-- An index of the output array is in point t's block iff each coordinate is in the block's range. -/
theorem mem_blk (t : Fin cfg0.N) (i : S50000x96.Idx) :
    i ∈ ((cfg0.win 3).blk t).view.set ↔ ∀ a : Fin 2, win0_3.index t a * S5000x96.size a ≤ (i a).val
      ∧ (i a).val < win0_3.index t a * S5000x96.size a + S5000x96.size a := by
  show i ∈ ((View.whole main_call0_v2).slice (win0_3.rect t)).set ↔ _
  rw [View.set_slice_whole, Rect.mem_set_unit]
  exact Iff.rfl

/-- After the region the output array is the dense transform of the arrays the region finds. -/
theorem final (c : Dev nD) :
    (dat0 V c).arrAt 3 cfg0.N = G0 (V c main_arg0) (V c main_arg3) (V c main_call0_v0) :=
  (dat0 V c).arrAt_eq_of_cover 3 _ (fun t _ => flushed_eq V c t) fun i => by
    have hi0 : (i 0).val < 50000 := (i 0).isLt
    have hi1 : (i 1).val < 96 := (i 1).isLt
    have hN : cfg0.N = 10 := N_0
    let t : Fin cfg0.N := ⟨(i 0).val / 5000, by rw [hN]; omega⟩
    obtain ⟨-, -, -, -, -, -, e0, e1⟩ := idx_facts t
    refine ⟨t, flush0_3 t, ?_⟩
    rw [mem_blk]
    intro a
    match a with
    | ⟨0, _⟩ =>
      show win0_3.index t 0 * 5000 ≤ (i 0).val ∧ (i 0).val < win0_3.index t 0 * 5000 + 5000
      rw [e0]; show (i 0).val / 5000 * 5000 ≤ (i 0).val ∧ (i 0).val < (i 0).val / 5000 * 5000 + 5000; omega
    | ⟨1, _⟩ =>
      show win0_3.index t 1 * 96 ≤ (i 1).val ∧ (i 1).val < win0_3.index t 1 * 96 + 96
      rw [e1]; omega

end Cert.KernelIdeal.Reg0

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.Spec.lean ====
/-
  What the two programs compute, as functions of the argument arrays, over the extended reals.

  A two-layer graph convolution: a dense transform of the node features (a matrix product plus a bias row), a weighted
  aggregation along the edges (shared verbatim by both programs and so never opened here), then per node a rectifier, a
  second matrix product plus bias, and a log-softmax over the 40 classes. The dense transform and the per-node tail are
  stated entry by entry; the row maximum is the fold of `max` from minus infinity over the row, the form both a lane
  reduction and a host reduction read to.
-/
import Idealize.ShloMosaic.PureOps.Ideal.Laws
import Idealize.ShloMosaic.Lib.ValueIdx

noncomputable section

namespace Cert.Gcn

open Idealize.ShloMosaic Idealize.ShloMosaic.ValueIdx

/-- Entry (r, h) of the dense transform: the feature row times the weight column, plus the bias at h. -/
def supportAt (x : (⟨2, ![50000, 512]⟩ : Shape).Idx → EReal) (w : (⟨2, ![512, 96]⟩ : Shape).Idx → EReal)
    (b : (⟨1, ![96]⟩ : Shape).Idx → EReal) (r : Fin 50000) (h : Fin 96) : EReal :=
  (∑ k : Fin 512, x (ix2 r k) * w (ix2 k h)) + b (ix1 h)

/-- The dense transform as an array. -/
def supportArr (x : (⟨2, ![50000, 512]⟩ : Shape).Idx → EReal) (w : (⟨2, ![512, 96]⟩ : Shape).Idx → EReal)
    (b : (⟨1, ![96]⟩ : Shape).Idx → EReal) : (⟨2, ![50000, 96]⟩ : Shape).Idx → EReal :=
  fun i => supportAt x w b ⟨(i 0).val, (i 0).isLt⟩ ⟨(i 1).val, (i 1).isLt⟩

theorem supportArr_ix2 (x : (⟨2, ![50000, 512]⟩ : Shape).Idx → EReal) (w : (⟨2, ![512, 96]⟩ : Shape).Idx → EReal)
    (b : (⟨1, ![96]⟩ : Shape).Idx → EReal) (r : Fin 50000) (h : Fin 96) :
    supportArr x w b (ix2 r h) = supportAt x w b r h := rfl

/-- Logit (r, j): the rectified aggregate row times the second weight column, plus the bias at j. The rectifier's zero is
    kept as the float word both programs print. -/
def logitAt (agg : (⟨2, ![50000, 96]⟩ : Shape).Idx → EReal) (w : (⟨2, ![96, 40]⟩ : Shape).Idx → EReal)
    (b : (⟨1, ![40]⟩ : Shape).Idx → EReal) (r : Fin 50000) (j : Fin 40) : EReal :=
  (∑ k : Fin 96, max (agg (ix2 r k)) (Ideal.ofBits .f32 0x00000000#32) * w (ix2 k j)) + b (ix1 j)

/-- A row's maximum: the fold of `max` from the word of minus infinity. -/
def rowMax (l : Fin 40 → EReal) : EReal :=
  (Finset.univ : Finset (Fin 40)).fold max (Ideal.ofBits .f32 0xFF800000#32) l

/-- Log-softmax of a row at class j: shift by the row maximum, subtract the log of the sum of exponentials of the shifted row. -/
def lsmAt (l : Fin 40 → EReal) (j : Fin 40) : EReal :=
  (l j - rowMax l) - Ideal.log (∑ q : Fin 40, Ideal.exp (l q - rowMax l))

/-- The program's result as an array, from the aggregate. -/
def outArr (agg : (⟨2, ![50000, 96]⟩ : Shape).Idx → EReal) (w : (⟨2, ![96, 40]⟩ : Shape).Idx → EReal)
    (b : (⟨1, ![40]⟩ : Shape).Idx → EReal) : (⟨2, ![50000, 40]⟩ : Shape).Idx → EReal :=
  fun i => lsmAt (logitAt agg w b ⟨(i 0).val, (i 0).isLt⟩) ⟨(i 1).val, (i 1).isLt⟩

theorem outArr_ix2 (agg : (⟨2, ![50000, 96]⟩ : Shape).Idx → EReal) (w : (⟨2, ![96, 40]⟩ : Shape).Idx → EReal)
    (b : (⟨1, ![40]⟩ : Shape).Idx → EReal) (r : Fin 50000) (j : Fin 40) :
    outArr agg w b (ix2 r j) = lsmAt (logitAt agg w b r) j := rfl

/-- The maximum with minus infinity on the left is the other operand. -/
theorem max_negInf_left (y : EReal) : max (Ideal.ofBits .f32 0xFF800000#32) y = y := by
  simp [Ideal.ofBits, Ideal.ieee]

end Cert.Gcn

end
-- ==== Proof.KPay1.lean ====
/-
  The second kernel body's stored value, read at an entry over the extended reals.

  The body loads a [5000, 96] block of aggregates, the whole [96, 40] weight and the [1, 40] bias row; it rectifies the
  block, multiplies it by the weight into a zero accumulator (both operands rounded to bf16: the identity here), adds the
  bias row, and takes a log-softmax along each row: subtract the row maximum (a lane maximum from minus infinity, kept as
  a column and broadcast back), exponentiate, sum along the row (kept as a column), take the logarithm, broadcast back
  and subtract. Entry (p, j) is the log-softmax at class j of row p's logits.
-/
import proofs.«175969_j3607772529222_2_alg».proof.Proof.Gen.KernelIdeal.Skeleton
import proofs.«175969_j3607772529222_2_alg».proof.Proof.LibDotApply
import proofs.«175969_j3607772529222_2_alg».proof.Proof.LibKeepdims
import proofs.«175969_j3607772529222_2_alg».proof.Proof.Spec
import Idealize.ShloMosaic.Lib.ValueLayout

noncomputable section

namespace Cert.KernelIdeal.Pay1

open Idealize.ShloMosaic Idealize.ShloMosaic.ValueIdx
open Cert.KernelIdeal Cert.KernelIdeal.Gen

variable [Cert.KernelIdeal.Facts]

/-- The second matrix product's dimension numbers are the plain ones. -/
theorem plain1 : Cert.LibPlainDot.IsPlain (n := 5000) (K := 96) (M := 40) dot_S5000x96_S96x40_S5000x40_1_0_0_1_n_n :=
  ⟨rfl, rfl, rfl, rfl, rfl, rfl⟩

/-- A row-wise log-softmax written with kept-dimension reductions and broadcasts, at entry (p, j): the log-softmax of row p
    at class j. -/
theorem lsm_block (L : FVec Ideal S5000x40 .f32) (h1 : S5000x40.Reduces [1] S5000) (hφ : FKind.Formats .f32)
    (hmax : (0xFF800000#32 : BitVec 32) = FKind.maximumf.neutral .f32 hφ)
    (hadd : (0x00000000#32 : BitVec 32) = FKind.add.neutral .f32 hφ)
    (hc : S5000.ShapeCasts S5000x1) (hb : S5000x1.Broadcasts S5000x40) (p : Fin 5000) (j : Fin 40) :
    subf (subf L (broadcastTo S5000x40 (shapeCast S5000x1 (multiReduction .maximumf [1] S5000 L 0xFF800000#32 h1 hφ hmax) hc) hb))
      (broadcastTo S5000x40 (log (shapeCast S5000x1 (multiReduction .add [1] S5000
        (exp (subf L (broadcastTo S5000x40 (shapeCast S5000x1 (multiReduction .maximumf [1] S5000 L 0xFF800000#32 h1 hφ hmax) hc) hb)))
        0x00000000#32 h1 hφ hadd) hc)) hb) (ix2 p j)
    = Cert.Gcn.lsmAt (fun q => L (ix2 p q)) j := by
  have hM : ∀ q : Fin 40, broadcastTo S5000x40 (shapeCast S5000x1 (multiReduction .maximumf [1] S5000 L 0xFF800000#32 h1 hφ hmax) hc) hb (ix2 p q)
      = Cert.Gcn.rowMax (fun q => L (ix2 p q)) := fun q =>
    (Cert.LibKeepdims.broadcastTo_a1_ab_apply _ hb p q).trans
      ((Cert.LibKeepdims.shapeCast_a_a1_apply _ hc p 0).trans (Cert.LibKeepdims.multiReduction_max_row L _ h1 hφ hmax p))
  generalize broadcastTo S5000x40 (shapeCast S5000x1 (multiReduction .maximumf [1] S5000 L 0xFF800000#32 h1 hφ hmax) hc) hb = B at hM ⊢
  have hS : (broadcastTo S5000x40 (log (shapeCast S5000x1 (multiReduction .add [1] S5000 (exp (subf L B)) 0x00000000#32 h1 hφ hadd) hc)) hb) (ix2 p j)
      = Ideal.log (∑ q : Fin 40, Ideal.exp (L (ix2 p q) - Cert.Gcn.rowMax (fun q => L (ix2 p q)))) := by
    refine (Cert.LibKeepdims.broadcastTo_a1_ab_apply _ hb p j).trans ?_
    show Ideal.log (shapeCast S5000x1 _ hc (ix2 p (0 : Fin 1))) = _
    refine congrArg Ideal.log ?_
    refine (Cert.LibKeepdims.shapeCast_a_a1_apply _ hc p 0).trans ?_
    refine (Cert.LibKeepdims.multiReduction_add_row _ _ h1 hφ hadd p).trans ?_
    refine Finset.sum_congr rfl fun q _ => ?_
    show Ideal.exp (L (ix2 p q) - B (ix2 p q)) = _
    rw [hM q]
  show (L (ix2 p j) - B (ix2 p j)) - _ = _
  rw [hM j, hS]
  rfl

/-- The logits block at entry (p, q): rectified row p times weight column q, plus the bias at q. -/
theorem logits_apply (x0 : Vec Ideal S5000x96 .f32) (x1 : Vec Ideal S96x40 .f32) (x2 : Vec Ideal S1x40 .f32)
    (hs0 : S5000x96.ShapeCasts S5000x96) (hlt : FTy.bf16.bits < FTy.f32.bits) (hs2 : S1x40.ShapeCasts S1x40)
    (hb2 : S1x40.Broadcasts S5000x40) (p : Fin 5000) (q : Fin 40) :
    (addf (matmul dot_S5000x96_S96x40_S5000x40_1_0_0_1_n_n none
        (truncf .bf16 (maximumf (shapeCast S5000x96 x0 hs0) (broadcast S5000x96 (Scalar.ofBits (F := Ideal) .f32 0x00000000#32))) hlt)
        (truncf .bf16 x1 hlt) (constant S5000x40 .f32 0x00000000#32))
      (broadcastTo S5000x40 (shapeCast S1x40 x2 hs2) hb2) : FVec Ideal S5000x40 .f32) (ix2 p q)
    = (∑ k : Fin 96, max (x0 (ix2 p k)) (Ideal.ofBits .f32 0x00000000#32) * x1 (ix2 k q)) + x2 (ix2 (0 : Fin 1) q) := by
  show FloatOps.matmul (F := Ideal) dot_S5000x96_S96x40_S5000x40_1_0_0_1_n_n none _ _ _ (ix2 p q)
      + broadcastTo S5000x40 (shapeCast S1x40 x2 hs2) hb2 (ix2 p q) = _
  refine congrArg₂ (· + ·) ?_ ?_
  · refine (Cert.LibDotApply.matmul_zero_apply dot_S5000x96_S96x40_S5000x40_1_0_0_1_n_n plain1 none _ _ p q).trans ?_
    refine Finset.sum_congr rfl fun k _ => ?_
    show max (shapeCast S5000x96 x0 hs0 (ix2 p k)) _ * x1 (ix2 k q) = _
    rw [shapeCast_self]
    rfl
  · refine (broadcastTo_1b_ab_apply _ _ p q).trans ?_
    rw [shapeCast_self]

/-- Entry (p, j) of the second body's stored block. -/
theorem pay1_apply (x0 : Vec Ideal S5000x96 .f32) (x1 : Vec Ideal S96x40 .f32) (x2 : Vec Ideal S1x40 .f32)
    (p : Fin 5000) (j : Fin 40) :
    k1_pay1 (F := Ideal) x0 x1 x2 (ix2 p j)
      = Cert.Gcn.lsmAt (fun q => (∑ k : Fin 96, max (x0 (ix2 p k)) (Ideal.ofBits .f32 0x00000000#32) * x1 (ix2 k q))
          + x2 (ix2 (0 : Fin 1) q)) j := by
  unfold k1_pay1
  refine (lsm_block _ _ _ _ _ _ _ p j).trans ?_
  exact congrArg (fun l => Cert.Gcn.lsmAt l j) (funext fun q => logits_apply x0 x1 x2 _ _ _ _ p q)

end Cert.KernelIdeal.Pay1

end
-- ==== Proof.KReg1.lean ====
/-
  The second region's output array, as one function of the arrays the region finds.

  The grid has ten points; point t reads rows 5000 t … 5000 t + 4999 of the aggregate, the whole second weight matrix and
  the whole second bias row, and writes rows 5000 t … 5000 t + 4999 of the result. A row of the result depends only on
  the same row of the aggregate, so every write-back is a block of one whole-array function — the row-wise log-softmax of
  the logits — and the ten blocks cover the array.
-/
import proofs.«175969_j3607772529222_2_alg».proof.Proof.Gen.KernelIdeal.Frame
import proofs.«175969_j3607772529222_2_alg».proof.Proof.KPay1
import Idealize.ShloMosaic.Lib.Pipeline.Value

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Entry i of the per-node tail of an aggregate array, a weight array and a one-row bias array: the log-softmax, at
    class i 1, of row i 0's logits. -/
def G1 (agg : S50000x96.Idx → EReal) (w : S96x40.Idx → EReal) (brow : S1x40.Idx → EReal) : S50000x40.Idx → EReal :=
  fun i => Cert.Gcn.lsmAt
    (fun q => (∑ k : Fin 96, max (agg (ix2 (⟨(i 0).val, (i 0).isLt⟩ : Fin 50000) k)) (Ideal.ofBits .f32 0x00000000#32) * w (ix2 k q))
      + brow (ix2 (0 : Fin 1) q))
    (⟨(i 1).val, (i 1).isLt⟩ : Fin 40)

theorem hz : (![0, 0] : Fin 2 → Nat) = fun _ => 0 := funext fun a => by fin_cases a <;> rfl

/-- The windows' block indices over the grid: the aggregate and result windows move down the rows with the point, the
    weight and bias windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The stored block at an entry, with the entry's coordinates read off the index. -/
theorem pay1_at (x0 : Vec Ideal S5000x96 .f32) (x1 : Vec Ideal S96x40 .f32) (x2 : Vec Ideal S1x40 .f32) (y : S5000x40.Idx) :
    k1_pay1 (F := Ideal) x0 x1 x2 y
      = Cert.Gcn.lsmAt (fun q => (∑ k : Fin 96, max (x0 (ix2 (⟨(y 0).val, (y 0).isLt⟩ : Fin 5000) k)) (Ideal.ofBits .f32 0x00000000#32) * x1 (ix2 k q))
          + x2 (ix2 (0 : Fin 1) q)) (⟨(y 1).val, (y 1).isLt⟩ : Fin 40) := by
  have e : y = ix2 (⟨(y 0).val, (y 0).isLt⟩ : Fin 5000) (⟨(y 1).val, (y 1).isLt⟩ : Fin 40) := eq_ix2 y
  rw [e]
  exact Pay1.pay1_apply x0 x1 x2 _ _

/-- The aggregate window's block at point t is rows 5000 t … of the aggregate array. -/
theorem iblk_a (c : Dev nD) (t : Fin cfg1.N) (y : S5000x96.Idx) (k : S50000x96.Idx)
    (hk0 : (k 0).val = 5000 * t.val + (y 0).val) (hk1 : (k 1).val = (y 1).val) :
    (iblk1 V c 0 t : Vec Ideal S5000x96 .f32) y = (V c main_call0_v20 : S50000x96.Idx → EReal) k := by
  obtain ⟨e0, e1, -⟩ := idx_facts t
  unfold iblk1
  rw [View.read_apply]
  show V c main_call0_v20 _ = V c main_call0_v20 _
  congr 1
  funext a
  apply Fin.ext
  match a with
  | ⟨0, _⟩ => show win1_0.index t 0 * 5000 + 1 * (y 0).val = (k 0).val; rw [e0, hk0]; omega
  | ⟨1, _⟩ => show win1_0.index t 1 * 96 + 1 * (y 1).val = (k 1).val; rw [e1, hk1]; omega

/-- The weight window's block at every point is the whole weight array. -/
theorem iblk_w (c : Dev nD) (t : Fin cfg1.N) (y : S96x40.Idx) :
    (iblk1 V c 1 t : Vec Ideal S96x40 .f32) y = (V c main_arg5 : S96x40.Idx → EReal) y := by
  obtain ⟨-, -, e0, e1, -⟩ := idx_facts t
  unfold iblk1
  rw [View.read_apply]
  show V c main_arg5 _ = V c main_arg5 _
  congr 1
  funext a
  apply Fin.ext
  match a with
  | ⟨0, _⟩ => show win1_1.index t 0 * 96 + 1 * (y 0).val = (y 0).val; rw [e0]; omega
  | ⟨1, _⟩ => show win1_1.index t 1 * 40 + 1 * (y 1).val = (y 1).val; rw [e1]; omega

/-- The bias window's block at every point is the whole bias row. -/
theorem iblk_b (c : Dev nD) (t : Fin cfg1.N) (y : S1x40.Idx) :
    (iblk1 V c 2 t : Vec Ideal S1x40 .f32) y = (V c main_call0_v1 : S1x40.Idx → EReal) y := by
  obtain ⟨-, -, -, -, e0, e1, -⟩ := idx_facts t
  unfold iblk1
  rw [View.read_apply]
  show V c main_call0_v1 _ = V c main_call0_v1 _
  congr 1
  funext a
  apply Fin.ext
  match a with
  | ⟨0, _⟩ => show win1_2.index t 0 * 1 + 1 * (y 0).val = (y 0).val; rw [e0]; omega
  | ⟨1, _⟩ => show win1_2.index t 1 * 40 + 1 * (y 1).val = (y 1).val; rw [e1]; omega

/-- What point t writes back is block t of the per-node tail of the arrays the region finds. -/
theorem flushed_eq (c : Dev nD) (t : Fin cfg1.N) :
    (dat1 V c).flushed 3 t = ((cfg1.win 3).blk t).view.read (Elt Ideal)
      (G1 (V c main_call0_v20) (V c main_arg5) (V c main_call0_v1)) := by
  show (cfg1.win 3).cut (grid1.coords t) ((dat1 V c).after 3 t) = _
  rw [after1_3]
  unfold out1_3
  rw [View.canon_unit_zero hz]
  simp only [View.ld_unit_zero (S := S5000x96) hz, View.ld_unit_zero (S := S96x40) hz, View.ld_unit_zero (S := S1x40) hz]
  obtain ⟨-, -, -, -, -, -, e0, e1⟩ := idx_facts t
  funext j
  have hj0 : (j 0).val < 5000 := (j 0).isLt
  have hj1 : (j 1).val < 40 := (j 1).isLt
  refine (pay1_at _ _ _ j).trans ?_
  show _ = G1 (V c main_call0_v20) (V c main_arg5) (V c main_call0_v1) (((cfg1.win 3).blk t).view.emb j)
  have h0 : ((((cfg1.win 3).blk t).view.emb j) 0).val = 5000 * t.val + (j 0).val := by
    show win1_3.index t 0 * 5000 + 1 * (j 0).val = _; rw [e0]; omega
  have h1 : ((((cfg1.win 3).blk t).view.emb j) 1).val = (j 1).val := by
    show win1_3.index t 1 * 40 + 1 * (j 1).val = _; rw [e1]; omega
  unfold G1
  refine congrArg₂ Cert.Gcn.lsmAt (funext fun q => congrArg₂ (· + ·) (Finset.sum_congr rfl fun k _ =>
    congrArg₂ (· * ·) (congrArg (fun z => max z _) ?_) ?_) ?_) (Fin.ext h1.symm)
  · exact iblk_a V c t _ _ (by show _ = 5000 * t.val + (j 0).val; exact h0) rfl
  · exact iblk_w V c t _
  · exact iblk_b V c t _

/-- An index of the result array is in point t's block iff each coordinate is in the block's range. -/
theorem mem_blk (t : Fin cfg1.N) (i : S50000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v0).slice (win1_3.rect t)).set ↔ _
  rw [View.set_slice_whole, Rect.mem_set_unit]
  exact Iff.rfl

/-- After the region the result array is the per-node tail of the arrays the region finds. -/
theorem final (c : Dev nD) :
    (dat1 V c).arrAt 3 cfg1.N = G1 (V c main_call0_v20) (V c main_arg5) (V c main_call0_v1) :=
  (dat1 V c).arrAt_eq_of_cover 3 _ (fun t _ => flushed_eq V c t) fun i => by
    have hi0 : (i 0).val < 50000 := (i 0).isLt
    have hi1 : (i 1).val < 40 := (i 1).isLt
    have hN : cfg1.N = 10 := N_1
    let t : Fin cfg1.N := ⟨(i 0).val / 5000, by rw [hN]; omega⟩
    obtain ⟨-, -, -, -, -, -, e0, e1⟩ := idx_facts t
    refine ⟨t, flush1_3 t, ?_⟩
    rw [mem_blk]
    intro a
    match a with
    | ⟨0, _⟩ =>
      show win1_3.index t 0 * 5000 ≤ (i 0).val ∧ (i 0).val < win1_3.index t 0 * 5000 + 5000
      rw [e0]; show (i 0).val / 5000 * 5000 ≤ (i 0).val ∧ (i 0).val < (i 0).val / 5000 * 5000 + 5000; omega
    | ⟨1, _⟩ =>
      show win1_3.index t 1 * 40 ≤ (i 1).val ∧ (i 1).val < win1_3.index t 1 * 40 + 40
      rw [e1]; omega

end Cert.KernelIdeal.Reg1

end
-- ==== Proof.RefEdge.lean ====
/-
  The edge stage both programs share: from the dense transform, the edge list and the edge weights to the aggregate.

  Row 0 of the edge list holds source nodes, row 1 destination nodes. A negative source index is wrapped by adding the
  node count; the transform's rows are gathered at the source nodes, scaled by the edge weights, and added into a zero
  array at the destination nodes. The stage is stated over the reference's own dimension records and is never opened:
  both programs apply it to equal operands.
-/
import proofs.«175969_j3607772529222_2_alg».proof.ReferenceIdeal

noncomputable section

namespace Cert.ReferenceIdeal.Edge

open Idealize.ShloMosaic Cert.ReferenceIdeal Cert.ReferenceIdeal.Facts₀

variable {F : FTy → Type} [FloatOps F] [Cert.ReferenceIdeal.Facts]

/-- The aggregate: gather at the wrapped sources, scale by the weights, scatter-add at the destinations. -/
def edgeStage (sup : (⟨S50000x96, .f32⟩ : BufTy).Contents (Elt F)) (ei : (⟨S2x800000, .i32⟩ : BufTy).Contents (Elt F))
    (ew : (⟨S800000, .f32⟩ : BufTy).Contents (Elt F)) : (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0
      (shapeCast S800000 (extractStridedSlice S1x800000 ![1, 0] ei slices_S2x800000_S1x800000_1_0) shapeCasts_S1x800000_S800000))
    (mulf
      (Host.gather gather_S50000x96_S800000x1_S800000x96_1_0_n_n_0_1_196 sup
        (broadcastInDim S800000x1 ![0] bcast_S800000_S800000x1_0
          (select
            (cmpi .slt (shapeCast S800000 (extractStridedSlice S1x800000 ![0, 0] ei slices_S2x800000_S1x800000_0_0) shapeCasts_S1x800000_S800000)
              (broadcastInDim S800000 ![] bcast_S_S800000 (constantI S_ 32 0#32)))
            (addi (shapeCast S800000 (extractStridedSlice S1x800000 ![0, 0] ei slices_S2x800000_S1x800000_0_0) shapeCasts_S1x800000_S800000)
              (broadcastInDim S800000 ![] bcast_S_S800000 (constantI S_ 32 50000#32)))
            (shapeCast S800000 (extractStridedSlice S1x800000 ![0, 0] ei slices_S2x800000_S1x800000_0_0) shapeCasts_S1x800000_S800000))))
      (broadcastInDim S800000x96 ![0, 1] bcast_S800000x1_S800000x96_0_1
        (broadcastInDim S800000x1 ![0] bcast_S800000_S800000x1_0 ew)))

end Cert.ReferenceIdeal.Edge

end
-- ==== Proof.KValue.lean ====
/-
  The idealized kernel's result, as a function of its arguments.

  The run's last boundary gives the result buffer what the second region's write-backs leave: the per-node tail of the
  arrays that region finds. Those are the second weight matrix, the second bias as a row, and the aggregate the second
  host stretch computes from the edge list, the edge weights and the first region's output array — which is the dense
  transform of the features, the first weight matrix and the first bias as a row. Reading the boundaries back to the
  launch memory, the result is the tail of the edge stage of the dense transform of the arguments. The widening of the
  gathered rows from bf16 to f32 is the identity over the extended reals, so the kernel's edge stage is the reference's.
-/
import proofs.«175969_j3607772529222_2_alg».proof.Proof.KRun
import proofs.«175969_j3607772529222_2_alg».proof.Proof.KHost
import proofs.«175969_j3607772529222_2_alg».proof.Proof.KReg0
import proofs.«175969_j3607772529222_2_alg».proof.Proof.KReg1
import proofs.«175969_j3607772529222_2_alg».proof.Proof.RefEdge
import proofs.«175969_j3607772529222_2_alg».proof.Proof.Gen.ReferenceIdeal
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Over the extended reals the kernel's edge stage is the reference's: the widening after the gather is the identity,
    and the two programs' dimension records are the same records. -/
theorem edge_eq (sup : S50000x96.Idx → EReal) (ei : (⟨S2x800000, .i32⟩ : BufTy).Contents (Elt Ideal)) (ew : S800000.Idx → EReal) :
    Stretch.edgeStageK (F := Ideal) sup ei ew = Cert.ReferenceIdeal.Edge.edgeStage (F := Ideal) sup ei ew := rfl

/-- With the bias given as a reshaped row, the first region's function is the dense transform. -/
theorem G0_row (x : S50000x512.Idx → EReal) (w : S512x96.Idx → EReal) (b : S96.Idx → EReal) (h : S96.ShapeCasts S1x96) :
    Reg0.G0 x w (shapeCast S1x96 b h) = Cert.Gcn.supportArr x w b := by
  funext i
  unfold Reg0.G0 Cert.Gcn.supportArr Cert.Gcn.supportAt
  rw [shapeCast_a_1a_apply]

/-- With the bias given as a reshaped row, the second region's function is the per-node tail. -/
theorem G1_row (agg : S50000x96.Idx → EReal) (w : S96x40.Idx → EReal) (b : S40.Idx → EReal) (h : S40.ShapeCasts S1x40) :
    Reg1.G1 agg w (shapeCast S1x40 b h) = Cert.Gcn.outArr agg w b := by
  funext i
  unfold Reg1.G1 Cert.Gcn.outArr Cert.Gcn.logitAt
  refine congrArg (fun l => Cert.Gcn.lsmAt l _) (funext fun q => ?_)
  rw [shapeCast_a_1a_apply]

/-! ## The boundaries, read back to the launch memory -/

theorem V1_x (c : Dev nD) : V1 m ρ c main_arg0 = m ((c : Thread nD τ).loc main_arg0) :=
  Stretch.ops0_arg0 (W0 m ρ c)
theorem V1_w (c : Dev nD) : V1 m ρ c main_arg3 = m ((c : Thread nD τ).loc main_arg3) :=
  Stretch.ops0_arg3 (W0 m ρ c)
theorem V1_b (c : Dev nD) : V1 m ρ c main_call0_v0 = shapeCast S1x96 (m ((c : Thread nD τ).loc main_arg4)) Facts₀.shapeCasts_S96_S1x96 :=
  Stretch.ops0_v0 (W0 m ρ c)

/-- The first region's output array after the region: the dense transform of the arguments. -/
theorem W2_sup (c : Dev nD) : W2 m ρ c (Proc.devRef .tc main_call0_v2)
    = Cert.Gcn.supportArr (m ((c : Thread nD τ).loc main_arg0)) (m ((c : Thread nD τ).loc main_arg3)) (m ((c : Thread nD τ).loc main_arg4)) := by
  refine (W2_arr m ρ c 3).trans ?_
  rw [Reg0.final (V1 m ρ) c, V1_x, V1_w, V1_b, G0_row]

theorem W2_ei (c : Dev nD) : W2 m ρ c (Proc.devRef .tc main_arg1) = m ((c : Thread nD τ).loc main_arg1) :=
  (W2_of_ne m ρ c main_arg1 (by decide)).trans (Stretch.ops0_arg1 (W0 m ρ c))
theorem W2_ew (c : Dev nD) : W2 m ρ c (Proc.devRef .tc main_arg2) = m ((c : Thread nD τ).loc main_arg2) :=
  (W2_of_ne m ρ c main_arg2 (by decide)).trans (Stretch.ops0_arg2 (W0 m ρ c))
theorem W2_w2 (c : Dev nD) : W2 m ρ c (Proc.devRef .tc main_arg5) = m ((c : Thread nD τ).loc main_arg5) :=
  (W2_of_ne m ρ c main_arg5 (by decide)).trans (Stretch.ops0_arg5 (W0 m ρ c))
theorem W2_b2 (c : Dev nD) : W2 m ρ c (Proc.devRef .tc main_call0_v1)
    = shapeCast S1x40 (m ((c : Thread nD τ).loc main_arg6)) Facts₀.shapeCasts_S40_S1x40 :=
  (W2_of_ne m ρ c main_call0_v1 (by decide)).trans (Stretch.ops0_v1 (W0 m ρ c))

/-- The aggregate the second region finds: the edge stage of the dense transform. -/
theorem V3_agg (c : Dev nD) : V3 m ρ c main_call0_v20
    = Cert.ReferenceIdeal.Edge.edgeStage (F := Ideal)
        (Cert.Gcn.supportArr (m ((c : Thread nD τ).loc main_arg0)) (m ((c : Thread nD τ).loc main_arg3)) (m ((c : Thread nD τ).loc main_arg4)))
        (m ((c : Thread nD τ).loc main_arg1)) (m ((c : Thread nD τ).loc main_arg2)) := by
  refine (Stretch.ops1_v20 (W2 m ρ c)).trans ?_
  rw [W2_sup, W2_ei, W2_ew, edge_eq]
theorem V3_w2 (c : Dev nD) : V3 m ρ c main_arg5 = m ((c : Thread nD τ).loc main_arg5) :=
  (Stretch.ops1_arg5 (W2 m ρ c)).trans (W2_w2 m ρ c)
theorem V3_b2 (c : Dev nD) : V3 m ρ c main_call0_v1
    = shapeCast S1x40 (m ((c : Thread nD τ).loc main_arg6)) Facts₀.shapeCasts_S40_S1x40 :=
  (Stretch.ops1_v1 (W2 m ρ c)).trans (W2_b2 m ρ c)

/-- The result buffer at the last boundary: the per-node tail of the edge stage of the dense transform. -/
theorem W4_out (c : Dev nD) : W4 m ρ c (Proc.devRef .tc main_v0)
    = Cert.Gcn.outArr (Cert.ReferenceIdeal.Edge.edgeStage (F := Ideal)
        (Cert.Gcn.supportArr (m ((c : Thread nD τ).loc main_arg0)) (m ((c : Thread nD τ).loc main_arg3)) (m ((c : Thread nD τ).loc main_arg4)))
        (m ((c : Thread nD τ).loc main_arg1)) (m ((c : Thread nD τ).loc main_arg2)))
      (m ((c : Thread nD τ).loc main_arg5)) (m ((c : Thread nD τ).loc main_arg6)) := by
  refine (W4_arr m ρ c 3).trans ?_
  rw [Reg1.final (V3 m ρ) c, V3_agg, V3_w2, V3_b2, G1_row]

/-- The idealized kernel's run: the result array is that function of the arguments, and the arguments end as launched. -/
theorem run : θ_run defs (onTc (τ := τ) (main (F := Ideal))) ⟨m, fun _ => 0, ρ⟩ (fun r => ∀ c : Dev nD,
      r.2.mem ((c.tc : Thread nD τ).loc main_v0)
        = Cert.Gcn.outArr (Cert.ReferenceIdeal.Edge.edgeStage (F := Ideal)
            (Cert.Gcn.supportArr (m ((c : Thread nD τ).loc main_arg0)) (m ((c : Thread nD τ).loc main_arg3)) (m ((c : Thread nD τ).loc main_arg4)))
            (m ((c : Thread nD τ).loc main_arg1)) (m ((c : Thread nD τ).loc main_arg2)))
          (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (W4_out m ρ c), (h c).2⟩) (Named.run m ρ)

end Cert.KernelIdeal.Whole

end
-- ==== Proof.RefRun.lean ====
/-
  The reference program's run, read in pieces.

  The program is a straight line of 46 array operations. Its first four compute the dense transform (a matrix product
  plus a broadcast bias row); the next twenty are the edge stage (gather at the sources, scale by the edge weights,
  add into a zero array at the destinations); the last twenty-two are the per-node tail (rectifier, second matrix
  product plus bias, log-softmax over the classes). The buffer contents after a line of operations is a fold over the
  line, and the fold over a concatenation is the composition of the folds. Each piece is read over an arbitrary
  starting contents, so that what it leaves in its result buffer is a short term in the few buffers it reads: the dense
  transform of three arguments, the edge stage of the transform and two arguments, the tail of the aggregate and two
  arguments (itself read in four shorter pieces: logits, row maxima, shifted logits, log-softmax). Composed, every
  terminating execution leaves the result buffer at the tail of the edge stage of the dense transform of the arguments'
  launch contents, and leaves the seven arguments as they were.
-/
import proofs.«175969_j3607772529222_2_alg».proof.Proof.Gen.ReferenceIdeal
import proofs.«175969_j3607772529222_2_alg».proof.Proof.RefEdge
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-! ## The pieces of the line -/

/-- Operations 1-4: the dense transform, into `main_v3`. -/
abbrev opsA : List (HloOp τ sig (Elt F)) :=
  [ binary main_arg0 main_arg3 main_v0 ((fun l r => Host.dotGeneral dot_S50000x512_S512x96_S50000x96_1_0_0_1_n_n none l r) : (⟨S50000x512, .f32⟩ : BufTy).Contents (Elt F) → (⟨S512x96, .f32⟩ : BufTy).Contents (Elt F) → (⟨S50000x96, .f32⟩ : BufTy).Contents (Elt F)),
    unary main_arg4 main_v1 (broadcastInDim S1x96 ![1] bcast_S96_S1x96_1 : (⟨S96, .f32⟩ : BufTy).Contents (Elt F) → (⟨S1x96, .f32⟩ : BufTy).Contents (Elt F)),
    unary main_v1 main_v2 (broadcastInDim S50000x96 ![0, 1] bcast_S1x96_S50000x96_0_1 : (⟨S1x96, .f32⟩ : BufTy).Contents (Elt F) → (⟨S50000x96, .f32⟩ : BufTy).Contents (Elt F)),
    binary main_v0 main_v2 main_v3 (addf : (⟨S50000x96, .f32⟩ : BufTy).Contents (Elt F) → (⟨S50000x96, .f32⟩ : BufTy).Contents (Elt F) → (⟨S50000x96, .f32⟩ : BufTy).Contents (Elt F)) ]

/-- Operations 5-24: the edge stage, from `main_v3` and two arguments into `main_v20`. -/
abbrev opsB : List (HloOp τ sig (Elt F)) :=
  [ unary main_arg1 main_v4 ((extractStridedSlice S1x800000 ![0, 0] · slices_S2x800000_S1x800000_0_0) : (⟨S2x800000, .i32⟩ : BufTy).Contents (Elt F) → (⟨S1x800000, .i32⟩ : BufTy).Contents (Elt F)),
    reshape main_v4 main_v5 rfl shapeCasts_S1x800000_S800000,
    unary main_arg1 main_v6 ((extractStridedSlice S1x800000 ![1, 0] · slices_S2x800000_S1x800000_1_0) : (⟨S2x800000, .i32⟩ : BufTy).Contents (Elt F) → (⟨S1x800000, .i32⟩ : BufTy).Contents (Elt F)),
    reshape main_v6 main_v7 rfl shapeCasts_S1x800000_S800000,
    nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_v5 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v10 (broadcastInDim S800000 ![] bcast_S_S800000 : (⟨S_, .i32⟩ : BufTy).Contents (Elt F) → (⟨S800000, .i32⟩ : BufTy).Contents (Elt F)),
    binary main_v5 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_v5 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v3 main_v13 main_v14 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    unary main_arg2 main_v15 (broadcastInDim S800000x1 ![0] bcast_S800000_S800000x1_0 : (⟨S800000, .f32⟩ : BufTy).Contents (Elt F) → (⟨S800000x1, .f32⟩ : BufTy).Contents (Elt F)),
    unary main_v15 main_v16 (broadcastInDim S800000x96 ![0, 1] bcast_S800000x1_S800000x96_0_1 : (⟨S800000x1, .f32⟩ : BufTy).Contents (Elt F) → (⟨S800000x96, .f32⟩ : BufTy).Contents (Elt F)),
    binary main_v14 main_v16 main_v17 (mulf : (⟨S800000x96, .f32⟩ : BufTy).Contents (Elt F) → (⟨S800000x96, .f32⟩ : BufTy).Contents (Elt F) → (⟨S800000x96, .f32⟩ : BufTy).Contents (Elt F)),
    nullary main_cst (constant S_ .f32 0x00000000#32),
    unary main_cst main_v18 (broadcastInDim S50000x96 ![] bcast_S_S50000x96 : (⟨S_, .f32⟩ : BufTy).Contents (Elt F) → (⟨S50000x96, .f32⟩ : BufTy).Contents (Elt F)),
    unary main_v7 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)) ]

/-- Operations 25-31: rectifier, second matrix product and bias, from `main_v20` and two arguments into `main_v25`. -/
abbrev opsC1 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v20) (TRef.of (T := ⟨S50000x96, .f32⟩) main_call0_v0) (TRef.of (T := ⟨S50000x96, .f32⟩) main_v21) maximumf,
    binary main_v21 main_arg5 main_v22 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    unary main_arg6 main_v23 (broadcastInDim S1x40 ![1] bcast_S40_S1x40_1 : (⟨S40, .f32⟩ : BufTy).Contents (Elt F) → (⟨S1x40, .f32⟩ : BufTy).Contents (Elt F)),
    unary main_v23 main_v24 (broadcastInDim S50000x40 ![0, 1] bcast_S1x40_S50000x40_0_1 : (⟨S1x40, .f32⟩ : BufTy).Contents (Elt F) → (⟨S50000x40, .f32⟩ : BufTy).Contents (Elt F)),
    binary main_v22 main_v24 main_v25 (addf : (⟨S50000x40, .f32⟩ : BufTy).Contents (Elt F) → (⟨S50000x40, .f32⟩ : BufTy).Contents (Elt F) → (⟨S50000x40, .f32⟩ : BufTy).Contents (Elt F)) ]

/-- Operations 32-36: the row maxima of `main_v25`, into `main_call1_v2`. -/
abbrev opsC2 : List (HloOp τ sig (Elt F)) :=
  [ TRef.nullary (TRef.of (T := ⟨S_, .f32⟩) main_call1_cst) (constant S_ .f32 0xFF800000#32),
    TRef.binary (TRef.of (T := ⟨S50000x40, .f32⟩) main_v25) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ]

/-- Operations 37-39: `main_v25` minus its row maxima broadcast along the rows, into `main_call1_v5`. -/
abbrev opsC3 : List (HloOp τ sig (Elt F)) :=
  [ TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v25) (TRef.of (T := ⟨S50000x40, .f32⟩) main_call1_v4) (TRef.of (T := ⟨S50000x40, .f32⟩) main_call1_v5) subf ]

/-- Operations 40-46: `main_call1_v5` minus the log of its rows' sums of exponentials, into `main_v26`. -/
abbrev opsC4 : List (HloOp τ sig (Elt F)) :=
  [ TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v26) subf ]

/-- Operations 25-46: the per-node tail, from `main_v20` and two arguments into `main_v26`. -/
abbrev opsC : List (HloOp τ sig (Elt F)) := opsC1 ++ opsC2 ++ opsC3 ++ opsC4

/-- The whole line. -/
abbrev ops : List (HloOp τ sig (Elt F)) := opsA ++ opsB ++ opsC

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨binary_bufs_sub .., unary_bufs_sub .., unary_bufs_sub .., binary_bufs_sub ..⟩
set_option maxRecDepth 8192 in
theorem opsB_sub : (opsB : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
set_option maxRecDepth 8192 in
theorem opsC1_sub : (opsC1 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub ..⟩
set_option maxRecDepth 8192 in
theorem opsC2_sub : (opsC2 : List (HloOp τ sig (Elt F))).Forall fun op => op.bufs ⊆ tcRefs τ sig :=
  ⟨nullary_bufs_sub .., binary_bufs_sub .., nullary_bufs_sub .., unary_bufs_sub .., binary_bufs_sub ..⟩
set_option maxRecDepth 8192 in
theorem opsC3_sub : (opsC3 : List (HloOp τ sig (Elt F))).Forall fun op => op.bufs ⊆ tcRefs τ sig :=
  ⟨unary_bufs_sub .., unary_bufs_sub .., binary_bufs_sub ..⟩
set_option maxRecDepth 8192 in
theorem opsC4_sub : (opsC4 : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

/-- Membership in the whole line is membership in one of the pieces. -/
theorem mem_ops {op : HloOp τ sig (Elt F)} (h : op ∈ (ops : List (HloOp τ sig (Elt F)))) :
    op ∈ (opsA : List (HloOp τ sig (Elt F))) ∨ op ∈ (opsB : List (HloOp τ sig (Elt F))) ∨ op ∈ (opsC1 : List (HloOp τ sig (Elt F)))
      ∨ op ∈ (opsC2 : List (HloOp τ sig (Elt F))) ∨ op ∈ (opsC3 : List (HloOp τ sig (Elt F))) ∨ op ∈ (opsC4 : List (HloOp τ sig (Elt F))) := by
  rcases List.mem_append.mp h with h | h
  · rcases List.mem_append.mp h with h | h
    · exact Or.inl h
    · exact Or.inr (Or.inl h)
  · rcases List.mem_append.mp h with h | h
    · rcases List.mem_append.mp h with h | h
      · rcases List.mem_append.mp h with h | h
        · exact Or.inr (Or.inr (Or.inl h))
        · exact Or.inr (Or.inr (Or.inr (Or.inl h)))
      · exact Or.inr (Or.inr (Or.inr (Or.inr (Or.inl h))))
    · exact Or.inr (Or.inr (Or.inr (Or.inr (Or.inr h))))

theorem ops_sub : (ops : List (HloOp τ sig (Elt F))).Forall fun op => op.bufs ⊆ tcRefs τ sig :=
  List.forall_iff_forall_mem.mpr fun op h => by
    rcases mem_ops h with h | h | h | h | h | h
    · exact List.forall_iff_forall_mem.mp opsA_sub op h
    · exact List.forall_iff_forall_mem.mp opsB_sub op h
    · exact List.forall_iff_forall_mem.mp opsC1_sub op h
    · exact List.forall_iff_forall_mem.mp opsC2_sub op h
    · exact List.forall_iff_forall_mem.mp opsC3_sub op h
    · exact List.forall_iff_forall_mem.mp opsC4_sub op h

/-! Every operation determines its results. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC1_fresh : ∀ op ∈ (opsC1 : List (HloOp τ sig (Elt F))), op.fresh = ∅ := by
  intro _ h; (repeat (cases h with | head => rfl | tail _ h => ?_)); exact nomatch h
theorem opsC2_fresh : ∀ op ∈ (opsC2 : List (HloOp τ sig (Elt F))), op.fresh = ∅ := by
  intro _ h; (repeat (cases h with | head => rfl | tail _ h => ?_)); exact nomatch h
theorem opsC3_fresh : ∀ op ∈ (opsC3 : List (HloOp τ sig (Elt F))), op.fresh = ∅ := by
  intro _ h; (repeat (cases h with | head => rfl | tail _ h => ?_)); exact nomatch h
theorem opsC4_fresh : ∀ op ∈ (opsC4 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h => by
  rcases mem_ops h with h | h | h | h | h | h
  · exact opsA_fresh op h
  · exact opsB_fresh op h
  · exact opsC1_fresh op h
  · exact opsC2_fresh op h
  · exact opsC3_fresh op h
  · exact opsC4_fresh op h

/-- The contents after a concatenation: run the first line, then the second from what it left. -/
theorem after_append (a b : List (HloOp τ sig (Elt F))) (V : Valuation τ sig (Elt F)) :
    after (a ++ b) V = after b (after a V) := by
  induction a generalizing V with
  | nil => rfl
  | cons op a ih => simp only [List.cons_append, after_cons, ih]

/-! ## What each piece computes, as a function of arrays -/

/-- The dense transform: the feature matrix times the first weight matrix, plus the bias row broadcast down the rows. -/
def supR (x0 : (⟨S50000x512, .f32⟩ : BufTy).Contents (Elt F)) (x3 : (⟨S512x96, .f32⟩ : BufTy).Contents (Elt F)) (x4 : (⟨S96, .f32⟩ : BufTy).Contents (Elt F)) :
    (⟨S50000x96, .f32⟩ : BufTy).Contents (Elt F) :=
  addf (Host.dotGeneral dot_S50000x512_S512x96_S50000x96_1_0_0_1_n_n none x0 x3)
    (broadcastInDim S50000x96 ![0, 1] bcast_S1x96_S50000x96_0_1 (broadcastInDim S1x96 ![1] bcast_S96_S1x96_1 x4))

/-- The logits: the aggregate rectified against a zero array, times the second weight matrix, plus the bias row broadcast
    down the rows. -/
def logitsR (agg : (⟨S50000x96, .f32⟩ : BufTy).Contents (Elt F)) (x5 : (⟨S96x40, .f32⟩ : BufTy).Contents (Elt F)) (x6 : (⟨S40, .f32⟩ : BufTy).Contents (Elt F)) :
    (⟨S50000x40, .f32⟩ : BufTy).Contents (Elt F) :=
  addf
    (Host.dotGeneral dot_S50000x96_S96x40_S50000x40_1_0_0_1_n_n none
      (maximumf agg (broadcastInDim S50000x96 ![] bcast_S_S50000x96 (constant S_ .f32 0x00000000#32))) x5)
    (broadcastInDim S50000x40 ![0, 1] bcast_S1x40_S50000x40_0_1 (broadcastInDim S1x40 ![1] bcast_S40_S1x40_1 x6))

/-- The row maxima: the maximum along the class axis from minus infinity, then once more against minus infinity. -/
def rowMaxR (l : (⟨S50000x40, .f32⟩ : BufTy).Contents (Elt F)) : (⟨S50000, .f32⟩ : BufTy).Contents (Elt F) :=
  maximumf (broadcastInDim S50000 ![] bcast_S_S50000 (constant S_ .f32 0xFF800000#32))
    (Host.reduce FloatOps.maximumf l (constant S_ .f32 0xFF800000#32) reducesTo_S50000x40_S50000_d1 h_S_)

/-- The logits shifted by their row maximum. -/
def shiftR (l : (⟨S50000x40, .f32⟩ : BufTy).Contents (Elt F)) : (⟨S50000x40, .f32⟩ : BufTy).Contents (Elt F) :=
  subf l (broadcastInDim S50000x40 ![0, 1] bcast_S50000x1_S50000x40_0_1
    (broadcastInDim S50000x1 ![0] bcast_S50000_S50000x1_0 (rowMaxR l)))

/-- The logarithm of each row's sum of exponentials, as a column. -/
def lseR (s : (⟨S50000x40, .f32⟩ : BufTy).Contents (Elt F)) : (⟨S50000x1, .f32⟩ : BufTy).Contents (Elt F) :=
  Host.log (broadcastInDim S50000x1 ![0] bcast_S50000_S50000x1_0
    (Host.reduceAdd (Host.exp s) (constant S_ .f32 0x00000000#32) reducesTo_S50000x40_S50000_d1 h_S_))

/-- Log-softmax along the class axis: the shifted logits minus the log of the row sums of their exponentials. -/
def lsmR (l : (⟨S50000x40, .f32⟩ : BufTy).Contents (Elt F)) : (⟨S50000x40, .f32⟩ : BufTy).Contents (Elt F) :=
  subf (shiftR l) (broadcastInDim S50000x40 ![0, 1] bcast_S50000x1_S50000x40_0_1 (lseR (shiftR l)))

/-- The per-node tail: log-softmax of the logits. -/
def tailR (agg : (⟨S50000x96, .f32⟩ : BufTy).Contents (Elt F)) (x5 : (⟨S96x40, .f32⟩ : BufTy).Contents (Elt F)) (x6 : (⟨S40, .f32⟩ : BufTy).Contents (Elt F)) :
    (⟨S50000x40, .f32⟩ : BufTy).Contents (Elt F) :=
  lsmR (logitsR agg x5 x6)

/-! ## Each piece over an arbitrary starting contents -/

section Chunks

variable (W : Valuation τ sig (Elt F))

/-- The first piece leaves the dense transform of three arguments in `main_v3`. -/
theorem A_v3 : after opsA W (Proc.devRef .tc main_v3)
    = supR (W (Proc.devRef .tc main_arg0)) (W (Proc.devRef .tc main_arg3)) (W (Proc.devRef .tc main_arg4)) := by
  after_results
  rfl

/-- The second piece leaves the edge stage of `main_v3`'s contents and two arguments in `main_v20`. -/
theorem B_v20 : after opsB W (Proc.devRef .tc main_v20)
    = Cert.ReferenceIdeal.Edge.edgeStage (W (Proc.devRef .tc main_v3)) (W (Proc.devRef .tc main_arg1)) (W (Proc.devRef .tc main_arg2)) := by
  after_results
  rfl

theorem C1_v25 : after opsC1 W (Proc.devRef .tc main_v25)
    = logitsR (W (Proc.devRef .tc main_v20)) (W (Proc.devRef .tc main_arg5)) (W (Proc.devRef .tc main_arg6)) := by
  after_results
  rfl

/-- The row-maximum piece with the reduction along the class axis kept as an abstract function `g` of the array and the
    initial value: what is left in `main_call1_v2` is the maximum of the minus-infinity array and `g` of `main_v25`'s
    contents and minus infinity. -/
theorem C2_gen (g : (⟨S50000x40, .f32⟩ : BufTy).Contents (Elt F) → (⟨S_, .f32⟩ : BufTy).Contents (Elt F) → (⟨S50000, .f32⟩ : BufTy).Contents (Elt F)) :
    after ([ TRef.nullary (TRef.of (T := ⟨S_, .f32⟩) main_call1_cst) (constant S_ .f32 0xFF800000#32),
    TRef.binary (TRef.of (T := ⟨S50000x40, .f32⟩) main_v25) (TRef.of (T := ⟨S_, .f32⟩) main_call1_cst) (TRef.of (T := ⟨S50000, .f32⟩) main_call1_v0) g,
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ] : List (HloOp τ sig (Elt F))) W (Proc.devRef .tc main_call1_v2)
      = maximumf (broadcastInDim S50000 ![] bcast_S_S50000 (constant S_ .f32 0xFF800000#32))
          (g (W (Proc.devRef .tc main_v25)) (constant S_ .f32 0xFF800000#32)) := by
  after_results
  rfl

theorem C2_v2 : after opsC2 W (Proc.devRef .tc main_call1_v2) = rowMaxR (W (Proc.devRef .tc main_v25)) :=
  C2_gen W (fun x v => Host.reduce FloatOps.maximumf x v reducesTo_S50000x40_S50000_d1 h_S_)
theorem C2_v25 : after opsC2 W (Proc.devRef .tc main_v25) = W (Proc.devRef .tc main_v25) := by after_results

theorem C3_v5 : after opsC3 W (Proc.devRef .tc main_call1_v5)
    = subf (W (Proc.devRef .tc main_v25)) (broadcastInDim S50000x40 ![0, 1] bcast_S50000x1_S50000x40_0_1
        (broadcastInDim S50000x1 ![0] bcast_S50000_S50000x1_0 (W (Proc.devRef .tc main_call1_v2)))) := by
  after_results
  rfl

theorem C4_v26 : after opsC4 W (Proc.devRef .tc main_v26)
    = subf (W (Proc.devRef .tc main_call1_v5)) (broadcastInDim S50000x40 ![0, 1] bcast_S50000x1_S50000x40_0_1 (lseR (W (Proc.devRef .tc main_call1_v5)))) := by
  after_results
  rfl

/-! No piece writes an argument. -/
theorem A_arg0 : after opsA W (Proc.devRef .tc main_arg0) = W (Proc.devRef .tc main_arg0) := by after_results
theorem A_arg1 : after opsA W (Proc.devRef .tc main_arg1) = W (Proc.devRef .tc main_arg1) := by after_results
theorem A_arg2 : after opsA W (Proc.devRef .tc main_arg2) = W (Proc.devRef .tc main_arg2) := by after_results
theorem A_arg3 : after opsA W (Proc.devRef .tc main_arg3) = W (Proc.devRef .tc main_arg3) := by after_results
theorem A_arg4 : after opsA W (Proc.devRef .tc main_arg4) = W (Proc.devRef .tc main_arg4) := by after_results
theorem A_arg5 : after opsA W (Proc.devRef .tc main_arg5) = W (Proc.devRef .tc main_arg5) := by after_results
theorem A_arg6 : after opsA W (Proc.devRef .tc main_arg6) = W (Proc.devRef .tc main_arg6) := by after_results
theorem B_arg0 : after opsB W (Proc.devRef .tc main_arg0) = W (Proc.devRef .tc main_arg0) := by after_results
theorem B_arg1 : after opsB W (Proc.devRef .tc main_arg1) = W (Proc.devRef .tc main_arg1) := by after_results
theorem B_arg2 : after opsB W (Proc.devRef .tc main_arg2) = W (Proc.devRef .tc main_arg2) := by after_results
theorem B_arg3 : after opsB W (Proc.devRef .tc main_arg3) = W (Proc.devRef .tc main_arg3) := by after_results
theorem B_arg4 : after opsB W (Proc.devRef .tc main_arg4) = W (Proc.devRef .tc main_arg4) := by after_results
theorem B_arg5 : after opsB W (Proc.devRef .tc main_arg5) = W (Proc.devRef .tc main_arg5) := by after_results
theorem B_arg6 : after opsB W (Proc.devRef .tc main_arg6) = W (Proc.devRef .tc main_arg6) := by after_results
theorem C1_arg0 : after opsC1 W (Proc.devRef .tc main_arg0) = W (Proc.devRef .tc main_arg0) := by after_results
theorem C1_arg1 : after opsC1 W (Proc.devRef .tc main_arg1) = W (Proc.devRef .tc main_arg1) := by after_results
theorem C1_arg2 : after opsC1 W (Proc.devRef .tc main_arg2) = W (Proc.devRef .tc main_arg2) := by after_results
theorem C1_arg3 : after opsC1 W (Proc.devRef .tc main_arg3) = W (Proc.devRef .tc main_arg3) := by after_results
theorem C1_arg4 : after opsC1 W (Proc.devRef .tc main_arg4) = W (Proc.devRef .tc main_arg4) := by after_results
theorem C1_arg5 : after opsC1 W (Proc.devRef .tc main_arg5) = W (Proc.devRef .tc main_arg5) := by after_results
theorem C1_arg6 : after opsC1 W (Proc.devRef .tc main_arg6) = W (Proc.devRef .tc main_arg6) := by after_results
theorem C2_arg0 : after opsC2 W (Proc.devRef .tc main_arg0) = W (Proc.devRef .tc main_arg0) := by after_results
theorem C2_arg1 : after opsC2 W (Proc.devRef .tc main_arg1) = W (Proc.devRef .tc main_arg1) := by after_results
theorem C2_arg2 : after opsC2 W (Proc.devRef .tc main_arg2) = W (Proc.devRef .tc main_arg2) := by after_results
theorem C2_arg3 : after opsC2 W (Proc.devRef .tc main_arg3) = W (Proc.devRef .tc main_arg3) := by after_results
theorem C2_arg4 : after opsC2 W (Proc.devRef .tc main_arg4) = W (Proc.devRef .tc main_arg4) := by after_results
theorem C2_arg5 : after opsC2 W (Proc.devRef .tc main_arg5) = W (Proc.devRef .tc main_arg5) := by after_results
theorem C2_arg6 : after opsC2 W (Proc.devRef .tc main_arg6) = W (Proc.devRef .tc main_arg6) := by after_results
theorem C3_arg0 : after opsC3 W (Proc.devRef .tc main_arg0) = W (Proc.devRef .tc main_arg0) := by after_results
theorem C3_arg1 : after opsC3 W (Proc.devRef .tc main_arg1) = W (Proc.devRef .tc main_arg1) := by after_results
theorem C3_arg2 : after opsC3 W (Proc.devRef .tc main_arg2) = W (Proc.devRef .tc main_arg2) := by after_results
theorem C3_arg3 : after opsC3 W (Proc.devRef .tc main_arg3) = W (Proc.devRef .tc main_arg3) := by after_results
theorem C3_arg4 : after opsC3 W (Proc.devRef .tc main_arg4) = W (Proc.devRef .tc main_arg4) := by after_results
theorem C3_arg5 : after opsC3 W (Proc.devRef .tc main_arg5) = W (Proc.devRef .tc main_arg5) := by after_results
theorem C3_arg6 : after opsC3 W (Proc.devRef .tc main_arg6) = W (Proc.devRef .tc main_arg6) := by after_results
theorem C4_arg0 : after opsC4 W (Proc.devRef .tc main_arg0) = W (Proc.devRef .tc main_arg0) := by after_results
theorem C4_arg1 : after opsC4 W (Proc.devRef .tc main_arg1) = W (Proc.devRef .tc main_arg1) := by after_results
theorem C4_arg2 : after opsC4 W (Proc.devRef .tc main_arg2) = W (Proc.devRef .tc main_arg2) := by after_results
theorem C4_arg3 : after opsC4 W (Proc.devRef .tc main_arg3) = W (Proc.devRef .tc main_arg3) := by after_results
theorem C4_arg4 : after opsC4 W (Proc.devRef .tc main_arg4) = W (Proc.devRef .tc main_arg4) := by after_results
theorem C4_arg5 : after opsC4 W (Proc.devRef .tc main_arg5) = W (Proc.devRef .tc main_arg5) := by after_results
theorem C4_arg6 : after opsC4 W (Proc.devRef .tc main_arg6) = W (Proc.devRef .tc main_arg6) := by after_results

/-- The tail is its four pieces in turn. -/
theorem afterC_split : after opsC W = after opsC4 (after opsC3 (after opsC2 (after opsC1 W))) :=
  (after_append ((opsC1 ++ opsC2) ++ opsC3) opsC4 W).trans (congrArg (after opsC4)
    ((after_append (opsC1 ++ opsC2) opsC3 W).trans (congrArg (after opsC3) (after_append opsC1 opsC2 W))))

/-- The third piece leaves the tail of `main_v20`'s contents and two arguments in `main_v26`. -/
theorem C_v26 : after opsC W (Proc.devRef .tc main_v26)
    = tailR (W (Proc.devRef .tc main_v20)) (W (Proc.devRef .tc main_arg5)) (W (Proc.devRef .tc main_arg6)) := by
  unfold tailR lsmR shiftR
  rw [afterC_split, C4_v26, C3_v5, C2_v2, C2_v25, C1_v25]

theorem C_arg0 : after opsC W (Proc.devRef .tc main_arg0) = W (Proc.devRef .tc main_arg0) := by
  rw [afterC_split, C4_arg0, C3_arg0, C2_arg0, C1_arg0]
theorem C_arg1 : after opsC W (Proc.devRef .tc main_arg1) = W (Proc.devRef .tc main_arg1) := by
  rw [afterC_split, C4_arg1, C3_arg1, C2_arg1, C1_arg1]
theorem C_arg2 : after opsC W (Proc.devRef .tc main_arg2) = W (Proc.devRef .tc main_arg2) := by
  rw [afterC_split, C4_arg2, C3_arg2, C2_arg2, C1_arg2]
theorem C_arg3 : after opsC W (Proc.devRef .tc main_arg3) = W (Proc.devRef .tc main_arg3) := by
  rw [afterC_split, C4_arg3, C3_arg3, C2_arg3, C1_arg3]
theorem C_arg4 : after opsC W (Proc.devRef .tc main_arg4) = W (Proc.devRef .tc main_arg4) := by
  rw [afterC_split, C4_arg4, C3_arg4, C2_arg4, C1_arg4]
theorem C_arg5 : after opsC W (Proc.devRef .tc main_arg5) = W (Proc.devRef .tc main_arg5) := by
  rw [afterC_split, C4_arg5, C3_arg5, C2_arg5, C1_arg5]
theorem C_arg6 : after opsC W (Proc.devRef .tc main_arg6) = W (Proc.devRef .tc main_arg6) := by
  rw [afterC_split, C4_arg6, C3_arg6, C2_arg6, C1_arg6]

/-- The whole line is the three pieces in turn. -/
theorem after_split : after ops W = after opsC (after opsB (after opsA W)) :=
  (after_append (opsA ++ opsB) opsC W).trans (congrArg (after opsC) (after_append opsA opsB W))

/-- The whole line leaves, in the result buffer, the tail of the edge stage of the dense transform of the arguments. -/
theorem ops_v26 : after ops W (Proc.devRef .tc main_v26)
    = tailR (Cert.ReferenceIdeal.Edge.edgeStage
        (supR (W (Proc.devRef .tc main_arg0)) (W (Proc.devRef .tc main_arg3)) (W (Proc.devRef .tc main_arg4)))
        (W (Proc.devRef .tc main_arg1)) (W (Proc.devRef .tc main_arg2)))
      (W (Proc.devRef .tc main_arg5)) (W (Proc.devRef .tc main_arg6)) := by
  rw [after_split, C_v26, B_v20, B_arg5, B_arg6, A_v3, A_arg1, A_arg2, A_arg5, A_arg6]

/-! No operation of the line writes an argument. -/
theorem ops_arg0 : after ops W (Proc.devRef .tc main_arg0) = W (Proc.devRef .tc main_arg0) := by
  rw [after_split, C_arg0, B_arg0, A_arg0]
theorem ops_arg1 : after ops W (Proc.devRef .tc main_arg1) = W (Proc.devRef .tc main_arg1) := by
  rw [after_split, C_arg1, B_arg1, A_arg1]
theorem ops_arg2 : after ops W (Proc.devRef .tc main_arg2) = W (Proc.devRef .tc main_arg2) := by
  rw [after_split, C_arg2, B_arg2, A_arg2]
theorem ops_arg3 : after ops W (Proc.devRef .tc main_arg3) = W (Proc.devRef .tc main_arg3) := by
  rw [after_split, C_arg3, B_arg3, A_arg3]
theorem ops_arg4 : after ops W (Proc.devRef .tc main_arg4) = W (Proc.devRef .tc main_arg4) := by
  rw [after_split, C_arg4, B_arg4, A_arg4]
theorem ops_arg5 : after ops W (Proc.devRef .tc main_arg5) = W (Proc.devRef .tc main_arg5) := by
  rw [after_split, C_arg5, B_arg5, A_arg5]
theorem ops_arg6 : after ops W (Proc.devRef .tc main_arg6) = W (Proc.devRef .tc main_arg6) := by
  rw [after_split, C_arg6, B_arg6, A_arg6]

end Chunks

/-! ## The run -/

/-- On every device, for any float values, from any memory with zero counters: every weakly fair execution of the
    program terminates with the result buffer at the tail of the edge stage of the dense transform of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = tailR (Cert.ReferenceIdeal.Edge.edgeStage
            (supR (m ((c.tc : Thread nD τ).loc main_arg0)) (m ((c.tc : Thread nD τ).loc main_arg3)) (m ((c.tc : Thread nD τ).loc main_arg4)))
            (m ((c.tc : Thread nD τ).loc main_arg1)) (m ((c.tc : Thread nD τ).loc main_arg2)))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v26).trans (ops_v26 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c))⟩)
    (run_seq scopedRefs_eq scopedSems_eq defs main (fun _ => ops) main_eq (fun _ => ops_sub) m ρ (fun _ => ops_fresh))

end Cert.ReferenceIdeal.Hand

end
-- ==== Proof.RefValue.lean ====
/-
  The reference's pieces, entry by entry over the extended reals, and its run against the specification.

  The dense transform at (r, h) is the sum over k of feature (r, k) times weight (k, h), plus the bias at h (a host
  matrix product is that sum; the bias vector broadcast to a row and then down the rows reads the vector at h). The
  per-node tail at (r, j): the rectifier's zero array reads the zero word everywhere; the row maximum is the host's
  reduction from minus infinity, and the further maximum against minus infinity changes nothing; the shifted logits, the
  exponentials, the host's row sum from zero, its logarithm and the last subtraction are read through their broadcasts.
  Each is the specification's entry, so the reference's run ends at the specification's composition.
-/
import proofs.«175969_j3607772529222_2_alg».proof.Proof.RefRun
import proofs.«175969_j3607772529222_2_alg».proof.Proof.Spec
import proofs.«175969_j3607772529222_2_alg».proof.Proof.LibDotApply
import proofs.«175969_j3607772529222_2_alg».proof.Proof.LibKeepdims
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Facts₀ Idealize.ShloMosaic Idealize.ShloMosaic.TcCoe Idealize.SL.Sem

open Idealize.ShloMosaic.ValueIdx

theorem plainA : Cert.LibPlainDot.IsPlain (n := 50000) (K := 512) (M := 96) dot_S50000x512_S512x96_S50000x96_1_0_0_1_n_n :=
  ⟨rfl, rfl, rfl, rfl, rfl, rfl⟩
theorem plainC : Cert.LibPlainDot.IsPlain (n := 50000) (K := 96) (M := 40) dot_S50000x96_S96x40_S50000x40_1_0_0_1_n_n :=
  ⟨rfl, rfl, rfl, rfl, rfl, rfl⟩

/-- A vector broadcast to one row and then down the rows reads, at (r, h), the vector at h. -/
theorem bias_apply {a b : ℕ} (x : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (h : Fin b) :
    broadcastInDim ⟨2, ![a, b]⟩ ![0, 1] h2 (broadcastInDim ⟨2, ![1, b]⟩ ![1] h1 x) (ix2 r h) = x (ix1 h) := by
  refine (broadcastInDim_apply _ h2 _ (ix2 r h) (ix2 (0 : Fin 1) h) fun ax => ?_).trans
    (broadcastInDim_apply _ h1 x (ix2 (0 : Fin 1) h) (ix1 h) fun ax => ?_)
  · match ax with
    | ⟨0, _⟩ => show (0 : ℕ) = if (1 : ℕ) = 1 then 0 else r.val; rw [if_pos rfl]
    | ⟨1, _⟩ =>
      show h.val = if b = 1 then 0 else h.val
      split
      · have := h.isLt; omega
      · rfl
  · match ax with
    | ⟨0, _⟩ =>
      show h.val = if b = 1 then 0 else h.val
      split
      · have := h.isLt; omega
      · rfl

/-- The dense transform is the specification's. -/
theorem supR_eq (x0 : (⟨S50000x512, .f32⟩ : BufTy).Contents (Elt Ideal)) (x3 : (⟨S512x96, .f32⟩ : BufTy).Contents (Elt Ideal))
    (x4 : (⟨S96, .f32⟩ : BufTy).Contents (Elt Ideal)) :
    supR (F := Ideal) x0 x3 x4 = Cert.Gcn.supportArr x0 x3 x4 := by
  funext i
  obtain ⟨r, h, rfl⟩ : ∃ (r : Fin 50000) (h : Fin 96), i = ix2 r h := ⟨i 0, i 1, eq_ix2 i⟩
  rw [Cert.Gcn.supportArr_ix2]
  unfold supR Cert.Gcn.supportAt
  show FloatOps.dotGeneral (F := Ideal) dot_S50000x512_S512x96_S50000x96_1_0_0_1_n_n none _ x0 x3 (ix2 r h) + _ = _
  refine congrArg₂ (· + ·) ?_ ?_
  · exact Cert.LibDotApply.dotGeneral_apply dot_S50000x512_S512x96_S50000x96_1_0_0_1_n_n plainA none _ x0 x3 r h
  · exact bias_apply x4 _ _ r h

/-- A scalar constant broadcast to any shape reads, at every index, the constant's value. -/
theorem bcast_scalar_apply {t : Shape} {φ : FTy} (b : BitVec φ.bits) (h : S_.BroadcastsInDim t ![]) (j : t.Idx) :
    broadcastInDim t ![] h (constant (F := Ideal) S_ φ b) j = Ideal.ofBits φ b :=
  broadcastInDim_apply _ h _ j ix0 (fun a => a.elim0)

/-- An [a] vector broadcast to an [a, 1] column reads, at (r, u), the vector at r. -/
theorem col_apply {a : ℕ} (v : (⟨1, ![a]⟩ : Shape).Idx → EReal)
    (h1 : (⟨1, ![a]⟩ : Shape).BroadcastsInDim ⟨2, ![a, 1]⟩ ![0]) (r : Fin a) (u : Fin 1) :
    broadcastInDim ⟨2, ![a, 1]⟩ ![0] h1 v (ix2 r u) = v (ix1 r) := by
  refine broadcastInDim_apply _ h1 v (ix2 r u) (ix1 r) fun ax => ?_
  match ax with
  | ⟨0, _⟩ =>
    show r.val = if a = 1 then 0 else r.val
    split
    · have := r.isLt; omega
    · rfl

/-- An [a, 1] column broadcast to [a, b] reads, at (r, q), the column at (r, 0). -/
theorem colrow_apply {a b : ℕ} (v : (⟨2, ![a, 1]⟩ : Shape).Idx → EReal)
    (h2 : (⟨2, ![a, 1]⟩ : Shape).BroadcastsInDim ⟨2, ![a, b]⟩ ![0, 1]) (r : Fin a) (q : Fin b) :
    broadcastInDim ⟨2, ![a, b]⟩ ![0, 1] h2 v (ix2 r q) = v (ix2 r (0 : Fin 1)) := by
  refine broadcastInDim_apply _ h2 v (ix2 r q) (ix2 r (0 : Fin 1)) fun ax => ?_
  match ax with
  | ⟨0, _⟩ =>
    show r.val = if a = 1 then 0 else r.val
    split
    · have := r.isLt; omega
    · rfl
  | ⟨1, _⟩ => show (0 : ℕ) = if (1 : ℕ) = 1 then 0 else q.val; rw [if_pos rfl]

/-- The logits at (r, q) are the specification's. -/
theorem logitsR_apply (agg : (⟨S50000x96, .f32⟩ : BufTy).Contents (Elt Ideal)) (x5 : (⟨S96x40, .f32⟩ : BufTy).Contents (Elt Ideal))
    (x6 : (⟨S40, .f32⟩ : BufTy).Contents (Elt Ideal)) (r : Fin 50000) (q : Fin 40) :
    logitsR (F := Ideal) agg x5 x6 (ix2 r q) = Cert.Gcn.logitAt agg x5 x6 r q := by
  unfold logitsR Cert.Gcn.logitAt
  show FloatOps.dotGeneral (F := Ideal) dot_S50000x96_S96x40_S50000x40_1_0_0_1_n_n none _ _ x5 (ix2 r q) + _ = _
  refine congrArg₂ (· + ·) ?_ ?_
  · refine (Cert.LibDotApply.dotGeneral_apply dot_S50000x96_S96x40_S50000x40_1_0_0_1_n_n plainC none _ _ x5 r q).trans ?_
    refine Finset.sum_congr rfl fun k _ => ?_
    show max (agg (ix2 r k)) (broadcastInDim S50000x96 ![] _ (constant (F := Ideal) S_ .f32 0x00000000#32) (ix2 r k)) * x5 (ix2 k q) = _
    rw [bcast_scalar_apply]
  · exact bias_apply x6 _ _ r q

/-- The host's row maximum from minus infinity, at r, is the specification's. -/
theorem hostMax_row (l : (⟨S50000x40, .f32⟩ : BufTy).Contents (Elt Ideal)) (r : Fin 50000) :
    Host.reduce (FloatOps.maximumf (F := Ideal) (φ := .f32)) l (constant (F := Ideal) S_ .f32 0xFF800000#32)
        reducesTo_S50000x40_S50000_d1 h_S_ (ix1 r)
      = Cert.Gcn.rowMax (fun q => l (ix2 r q)) :=
  (Cert.LibKeepdims.hostReduce_max_row (φ := .f32) l (constant (F := Ideal) S_ .f32 0xFF800000#32)
    reducesTo_S50000x40_S50000_d1 (by decide) h_S_ r).trans rfl

/-- The row maximum at r is the specification's. -/
theorem rowMaxR_apply (l : (⟨S50000x40, .f32⟩ : BufTy).Contents (Elt Ideal)) (r : Fin 50000) :
    rowMaxR (F := Ideal) l (ix1 r) = Cert.Gcn.rowMax (fun q => l (ix2 r q)) := by
  unfold rowMaxR
  refine (maximumf_apply _ _ (ix1 r)).trans ?_
  rw [bcast_scalar_apply, Cert.Gcn.max_negInf_left]
  exact hostMax_row l r

/-- The shifted logits at (r, q). -/
theorem shiftR_apply (l : (⟨S50000x40, .f32⟩ : BufTy).Contents (Elt Ideal)) (r : Fin 50000) (q : Fin 40) :
    shiftR (F := Ideal) l (ix2 r q) = l (ix2 r q) - Cert.Gcn.rowMax (fun q => l (ix2 r q)) := by
  unfold shiftR
  show l (ix2 r q) - broadcastInDim S50000x40 ![0, 1] _ (broadcastInDim S50000x1 ![0] _ (rowMaxR (F := Ideal) l)) (ix2 r q) = _
  rw [colrow_apply, col_apply, rowMaxR_apply]

/-- The host's logarithm and exponential, at an index. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The host's sum along axis 1 from a scalar initial value, at row p. -/
theorem hostAdd_row {a b : ℕ} (x : FVec Ideal ⟨2, ![a, b]⟩ .f32) (init : S_.Idx → Ideal .f32)
    (h' : (⟨2, ![a, b]⟩ : Shape).ReducesTo [1] ⟨1, ![a]⟩) (h : (⟨2, ![a, b]⟩ : Shape).Reduces [1] ⟨1, ![a]⟩)
    (hu : 0 < S_.numel) (p : Fin a) :
    Host.reduceAdd x init h' hu (ix1 p) = init (Shape.Idx.first hu) + ∑ k : Fin b, x (ix2 p k) := by
  simp only [Host.reduceAdd, Ideal.hostReduceAdd_def]
  exact Cert.LibKeepdims.hostReduceAdd_row h' h x _ p

/-- The log of the row sum of exponentials, at (r, 0). -/
theorem lseR_apply (s : (⟨S50000x40, .f32⟩ : BufTy).Contents (Elt Ideal)) (r : Fin 50000) :
    lseR (F := Ideal) s (ix2 r (0 : Fin 1)) = Ideal.log (∑ q : Fin 40, Ideal.exp (s (ix2 r q))) := by
  unfold lseR
  rw [hostLog_apply, col_apply, hostAdd_row _ _ _ (by decide) _ r]
  refine congrArg Ideal.log ?_
  rw [show (constant (F := Ideal) S_ .f32 0x00000000#32) (Shape.Idx.first h_S_) = Ideal.ofBits .f32 0x00000000#32 from rfl,
    Ideal.ofBits_zero_f32, zero_add]
  rfl

/-- The per-node tail is the specification's. -/
theorem tailR_eq (agg : (⟨S50000x96, .f32⟩ : BufTy).Contents (Elt Ideal)) (x5 : (⟨S96x40, .f32⟩ : BufTy).Contents (Elt Ideal))
    (x6 : (⟨S40, .f32⟩ : BufTy).Contents (Elt Ideal)) :
    tailR (F := Ideal) agg x5 x6 = Cert.Gcn.outArr agg x5 x6 := by
  funext i
  obtain ⟨r, j, rfl⟩ : ∃ (r : Fin 50000) (j : Fin 40), i = ix2 r j := ⟨i 0, i 1, eq_ix2 i⟩
  rw [Cert.Gcn.outArr_ix2]
  unfold tailR lsmR Cert.Gcn.lsmAt
  show shiftR (F := Ideal) (logitsR agg x5 x6) (ix2 r j)
      - broadcastInDim S50000x40 ![0, 1] _ (lseR (F := Ideal) (shiftR (logitsR agg x5 x6))) (ix2 r j) = _
  rw [colrow_apply, lseR_apply, shiftR_apply]
  simp only [shiftR_apply, logitsR_apply]

/-! ## The run against the specification -/

/-- The idealized reference's run: the result array is the per-node tail of the edge stage of the dense transform of
    the arguments, and the arguments end as launched. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = Cert.Gcn.outArr (Cert.ReferenceIdeal.Edge.edgeStage (F := Ideal)
            (Cert.Gcn.supportArr (m ((c.tc : Thread nD τ).loc main_arg0)) (m ((c.tc : Thread nD τ).loc main_arg3)) (m ((c.tc : Thread nD τ).loc main_arg4)))
            (m ((c.tc : Thread nD τ).loc main_arg1)) (m ((c.tc : Thread nD τ).loc main_arg2)))
          (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by rw [supR_eq, tailR_eq]), (h c).2⟩) (run (F := Ideal) m ρ)

end Cert.ReferenceIdeal.Hand

end
-- ==== Proof.lean ====
/-
  The certificate: a two-layer graph convolution kernel against its reference, over the extended reals.

  The kernel runs two tiled regions around a shared edge stage on the host. Each region's output array is one whole-array
  function of the arrays the region finds (the dense transform; the per-node rectifier, matrix product, bias and
  log-softmax), because every grid point writes back a block of that one function and the blocks cover the array. The
  edge stage between the regions is the reference's own, applied to equal operands, and is never opened. The reference's
  straight line of host operations is read in pieces to the same composition. So both programs end with the result
  array at the tail of the edge stage of the dense transform of the arguments; the three frames are the runs with the
  result dropped; and the idealization rewrote nothing, so there is nothing to preserve.
-/
import proofs.«175969_j3607772529222_2_alg».proof.Defs
import proofs.«175969_j3607772529222_2_alg».proof.Proof.Gen.Kernel
import proofs.«175969_j3607772529222_2_alg».proof.Proof.Gen.Kernel.Frame
import proofs.«175969_j3607772529222_2_alg».proof.Proof.Gen.KernelIdeal
import proofs.«175969_j3607772529222_2_alg».proof.Proof.Gen.KernelIdeal.Frame
import proofs.«175969_j3607772529222_2_alg».proof.Proof.Gen.ReferenceIdeal
import proofs.«175969_j3607772529222_2_alg».proof.Proof.Gen.Pre_finite_inputs
import proofs.«175969_j3607772529222_2_alg».proof.Proof.KValue
import proofs.«175969_j3607772529222_2_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run_spec m ρ)

theorem preserves : Cert.preserves_Kernel_KernelIdeal := trivial

/-- Both idealized programs, from memories agreeing on the arguments, end with the result array at the same function
    of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run_spec m' ρ')
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
